-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S1024x1024 : Shape := ⟨2, ![1024, 1024]⟩
abbrev S1024 : Shape := ⟨1, ![1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S64x512x1024 .f32) (main_arg1 : FVec F S64x512x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S64x512x1024 : Shape := ⟨3, ![64, 512, 1024]⟩
abbrev S1024x1024 : Shape := ⟨2, ![1024, 1024]⟩
abbrev S1024 : Shape := ⟨1, ![1024]⟩
abbrev S1x1024 : Shape := ⟨2, ![1, 1024]⟩
abbrev S64x1x1024 : Shape := ⟨3, ![64, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S64x1024 : Shape := ⟨2, ![64, 1024]⟩

abbrev nBuf : Space → Nat
  | .hbm => 25
  | .vmem => 12
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S64x1x1024, .f32⟩
  | .hbm, ⟨24, _⟩ => ⟨S64x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  reduces_S1x512_S1 : S1x512.Reduces [1] S1
  shapeCasts_S1_S1x1 : S1.ShapeCasts S1x1
  broadcasts_S1x1_S1x1024 : S1x1.Broadcasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S64x1x1024_S64x1024 : S64x1x1024.ShapeCasts S64x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S1x512_S512x1024_S1x1024_1_0_0_1_n_n_wf : DotDims.WF S1x512 S512x1024 S1x1024 [1] [0] [0] [1] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S64x1x1024.size a
  hwx0_8 : ∀ i : grid0.Coords, EltTy.bits .f32 = 32 ∨ (Rect.block (s := S64x1x1024) S1x1x1024.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S1024x1024 : Shape := ⟨2, ![1024, 1024]⟩
abbrev S1024 : Shape := ⟨1, ![1024]⟩
abbrev S1x1x1024 : Shape := ⟨3, ![1, 1, 1024]⟩
abbrev S64x512x512 : Shape := ⟨3, ![64, 512, 512]⟩
abbrev S_ : Shape := ⟨0, ![]⟩
abbrev S64x512 : Shape := ⟨2, ![64, 512]⟩
abbrev S64x512x1 : Shape := ⟨3, ![64, 512, 1]⟩
abbrev S64x1024 : Shape := ⟨2, ![64, 1024]⟩

abbrev nBuf : Space → Nat
  | .hbm => 56
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S64x512x1024, .f32⟩
  | .hbm, ⟨15, _⟩ => ⟨S1x1x1024, .f32⟩
  | .hbm, ⟨16, _⟩ => ⟨S64x512x1024, .f32⟩
  | .hbm, ⟨17, _⟩ => ⟨S64x512x1024, .f32⟩
  | .hbm, ⟨18, _⟩ => ⟨S64x512x1024, .f32⟩
  | .hbm, ⟨19, _⟩ => ⟨S1x1x1024, .f32⟩
  | .hbm, ⟨20, _⟩ => ⟨S64x512x1024, .f32⟩
  | .hbm, ⟨21, _⟩ => ⟨S64x512x1024, .f32⟩
  | .hbm, ⟨22, _⟩ => ⟨S64x512x1024, .f32⟩
  | .hbm, ⟨23, _⟩ => ⟨S1x1x1024, .f32⟩
  | .hbm, ⟨24, _⟩ => ⟨S64x512x1024, .f32⟩
  | .hbm, ⟨25, _⟩ => ⟨S64x512x1024, .f32⟩
  | .hbm, ⟨26, _⟩ => ⟨S64x512x1024, .f32⟩
  | .hbm, ⟨27, _⟩ => ⟨S1x1x1024, .f32⟩
  | .hbm, ⟨28, _⟩ => ⟨S64x512x1024, .f32⟩
  | .hbm, ⟨29, _⟩ => ⟨S64x512x1024, .f32⟩
  | .hbm, ⟨30, _⟩ => ⟨S64x512x1024, .f32⟩
  | .hbm, ⟨31, _⟩ => ⟨S1x1x1024, .f32⟩
  | .hbm, ⟨32, _⟩ => ⟨S64x512x1024, .f32⟩
  | .hbm, ⟨33, _⟩ => ⟨S64x512x1024, .f32⟩
  | .hbm, ⟨34, _⟩ => ⟨S64x512x1024, .f32⟩
  | .hbm, ⟨35, _⟩ => ⟨S1x1x1024, .f32⟩
  | .hbm, ⟨36, _⟩ => ⟨S64x512x1024, .f32⟩
  | .hbm, ⟨37, _⟩ => ⟨S64x512x1024, .f32⟩
  | .hbm, ⟨38, _⟩ => ⟨S64x512x512, .f32⟩
  | .hbm, ⟨39, _⟩ => ⟨S_, .f32⟩
  | .hbm, ⟨40, _⟩ => ⟨S64x512, .f32⟩
  | .hbm, ⟨41, _⟩ => ⟨S_, .f32⟩
  | .hbm, ⟨42, _⟩ => ⟨S64x512, .f32⟩
  | .hbm, ⟨43, _⟩ => ⟨S64x512, .f32⟩
  | .hbm, ⟨44, _⟩ => ⟨S64x512x1, .f32⟩
  | .hbm, ⟨45, _⟩ => ⟨S64x512x512, .f32⟩
  | .hbm, ⟨46, _⟩ => ⟨S64x512x512, .f32⟩
  | .hbm, ⟨47, _⟩ => ⟨S64x512x512, .f32⟩
  | .hbm, ⟨48, _⟩ => ⟨S_, .f32⟩
  | .hbm, ⟨49, _⟩ => ⟨S64x512, .f32⟩
  | .hbm, ⟨50, _⟩ => ⟨S64x512x1, .f32⟩
  | .hbm, ⟨51, _⟩ => ⟨S64x512x512, .f32⟩
  | .hbm, ⟨52, _⟩ => ⟨S64x512x512, .f32⟩
  | .hbm, ⟨53, _⟩ => ⟨S64x512x1024, .f32⟩
  | .hbm, ⟨54, _⟩ => ⟨S_, .f32⟩
  | .hbm, ⟨55, _⟩ => ⟨S64x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  reducesTo_S64x512x1024_S64x1024_d1 : S64x512x1024.ReducesTo [1] S64x1024
  dot_S64x512x1024_S1024x1024_S64x512x1024_2_1_01_0_n_n_wf : DotDims.WF S64x512x1024 S1024x1024 S64x512x1024 [2] [1] [0, 1] [0] [] []
  dot_S64x512x1024_S64x512x1024_S64x512x512_2_2_1_1_0_0_wf : DotDims.WF S64x512x1024 S64x512x1024 S64x512x512 [2] [2] [1] [1] [0] [0]
  dot_S64x512x512_S64x512x1024_S64x512x1024_2_1_1_2_0_0_wf : DotDims.WF S64x512x512 S64x512x1024 S64x512x1024 [2] [1] [1] [2] [0] [0]

variable [Facts₀]

def dot_S64x512x1024_S1024x1024_S64x512x1024_2_1_01_0_n_n : DotDims S64x512x1024 S1024x1024 S64x512x1024 where
  lhsContracting := [2]
  rhsContracting := [1]
  lhsNonContracting := [0, 1]
  rhsNonContracting := [0]
  lhsBatch := []
  rhsBatch := []
  wf := dot_S64x512x1024_S1024x1024_S64x512x1024_2_1_01_0_n_n_wf
def dot_S64x512x1024_S64x512x1024_S64x512x512_2_2_1_1_0_0 : DotDims S64x512x1024 S64x512x1024 S64x512x512 where
  lhsContracting := [2]
  rhsContracting := [2]
  lhsNonContracting := [1]
  rhsNonContracting := [1]
  lhsBatch := [0]
  rhsBatch := [0]
  wf := dot_S64x512x1024_S64x512x1024_S64x512x512_2_2_1_1_0_0_wf
def dot_S64x512x512_S64x512x1024_S64x512x1024_2_1_1_2_0_0 : DotDims S64x512x512 S64x512x1024 S64x512x1024 where
  lhsContracting := [2]
  rhsContracting := [1]
  lhsNonContracting := [1]
  rhsNonContracting := [2]
  lhsBatch := [0]
  rhsBatch := [0]
  wf := dot_S64x512x512_S64x512x1024_S64x512x1024_2_1_1_2_0_0_wf

class Facts : Prop extends Facts₀ where

variable [Facts]
-- ==== Proof.KernelDots.lean ====
/-
  The kernel's four matrix products, each into a zero accumulator, read entry by entry as plain sums over the contracted axis.
-/
import proofs.«160542_j73005854097706_2_alg».proof.Proof.Gen.KernelIdeal
import Idealize.ShloMosaic.PureOps.Ideal.Laws
import Idealize.ShloMosaic.Lib.ValueIdx

noncomputable section

open scoped BigOperators

namespace Cert.AttnPool.Kernel

open Idealize.ShloMosaic Idealize.ShloMosaic.ValueIdx Cert.KernelIdeal Cert.KernelIdeal.Gen

/-- Entry (p,q) of the product held by `dot_S512x1024_S1024x1024_S512x1024_1_0_0_1_n_n` into a zero accumulator: `∑ k lhs[p,k]·rhs[k,q]`. -/
theorem proj_apply {φ₁ φ₂ : FTy} (lhs : FVec Ideal _ φ₁) (rhs : FVec Ideal _ φ₂) (p : Fin 512) (q : Fin 1024) :
    matmul dot_S512x1024_S1024x1024_S512x1024_1_0_0_1_n_n none lhs rhs (constant (F := Ideal) S512x1024 .f32 0x00000000#32) (ix2 p q)
      = ∑ k : Fin 1024, lhs (ix2 p k) * rhs (ix2 k q) := by
  refine (Ideal.matmul_constant_zero_apply dot_S512x1024_S1024x1024_S512x1024_1_0_0_1_n_n none lhs rhs (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ =>
      show (dot_S512x1024_S1024x1024_S512x1024_1_0_0_1_n_n.lhsIdx (ix2 p q) _ 0).val = _
      unfold DotDims.lhsIdx
      rw [dif_neg (show ¬(0 : Fin 2) ∈ dot_S512x1024_S1024x1024_S512x1024_1_0_0_1_n_n.lhsBatch by decide), dif_pos (show (0 : Fin 2) ∈ dot_S512x1024_S1024x1024_S512x1024_1_0_0_1_n_n.lhsNonContracting by decide)]
      rfl
    | ⟨1, _⟩ => exact (dot_S512x1024_S1024x1024_S512x1024_1_0_0_1_n_n.lhsIdx_val_of_single rfl (ix2 p q) _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨1, _⟩ =>
      show (dot_S512x1024_S1024x1024_S512x1024_1_0_0_1_n_n.rhsIdx (ix2 p q) _ 1).val = _
      unfold DotDims.rhsIdx
      rw [dif_neg (show ¬(1 : Fin 2) ∈ dot_S512x1024_S1024x1024_S512x1024_1_0_0_1_n_n.rhsBatch by decide), dif_pos (show (1 : Fin 2) ∈ dot_S512x1024_S1024x1024_S512x1024_1_0_0_1_n_n.rhsNonContracting by decide)]
      rfl
    | ⟨0, _⟩ => exact (dot_S512x1024_S1024x1024_S512x1024_1_0_0_1_n_n.rhsIdx_val_of_single rfl (ix2 p q) _).trans hk)
  rw [el, er]

/-- Entry (p,q) of the product held by `dot_S512x1024_S512x1024_S512x512_1_1_0_0_n_n` into a zero accumulator: `∑ k lhs[p,k]·rhs[q,k]`. -/
theorem scores_apply {φ₁ φ₂ : FTy} (lhs : FVec Ideal _ φ₁) (rhs : FVec Ideal _ φ₂) (p : Fin 512) (q : Fin 512) :
    matmul dot_S512x1024_S512x1024_S512x512_1_1_0_0_n_n none lhs rhs (constant (F := Ideal) S512x512 .f32 0x00000000#32) (ix2 p q)
      = ∑ k : Fin 1024, lhs (ix2 p k) * rhs (ix2 q k) := by
  refine (Ideal.matmul_constant_zero_apply dot_S512x1024_S512x1024_S512x512_1_1_0_0_n_n none lhs rhs (ix2 p q)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ =>
      show (dot_S512x1024_S512x1024_S512x512_1_1_0_0_n_n.lhsIdx (ix2 p q) _ 0).val = _
      unfold DotDims.lhsIdx
      rw [dif_neg (show ¬(0 : Fin 2) ∈ dot_S512x1024_S512x1024_S512x512_1_1_0_0_n_n.lhsBatch by decide), dif_pos (show (0 : Fin 2) ∈ dot_S512x1024_S512x1024_S512x512_1_1_0_0_n_n.lhsNonContracting by decide)]
      rfl
    | ⟨1, _⟩ => exact (dot_S512x1024_S512x1024_S512x512_1_1_0_0_n_n.lhsIdx_val_of_single rfl (ix2 p q) _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ =>
      show (dot_S512x1024_S512x1024_S512x512_1_1_0_0_n_n.rhsIdx (ix2 p q) _ 0).val = _
      unfold DotDims.rhsIdx
      rw [dif_neg (show ¬(0 : Fin 2) ∈ dot_S512x1024_S512x1024_S512x512_1_1_0_0_n_n.rhsBatch by decide), dif_pos (show (0 : Fin 2) ∈ dot_S512x1024_S512x1024_S512x512_1_1_0_0_n_n.rhsNonContracting by decide)]
      rfl
    | ⟨1, _⟩ => exact (dot_S512x1024_S512x1024_S512x512_1_1_0_0_n_n.rhsIdx_val_of_single rfl (ix2 p q) _).trans hk)
  rw [el, er]

/-- Entry (p,q) of the product held by `dot_S1x512_S512x1024_S1x1024_1_0_0_1_n_n` into a zero accumulator: `∑ k lhs[p,k]·rhs[k,q]`. -/
theorem pool_apply {φ₁ φ₂ : FTy} (lhs : FVec Ideal _ φ₁) (rhs : FVec Ideal _ φ₂) (p : Fin 1) (q : Fin 1024) :
    matmul dot_S1x512_S512x1024_S1x1024_1_0_0_1_n_n none lhs rhs (constant (F := Ideal) S1x1024 .f32 0x00000000#32) (ix2 p q)
      = ∑ k : Fin 512, lhs (ix2 p k) * rhs (ix2 k q) := by
  refine (Ideal.matmul_constant_zero_apply dot_S1x512_S512x1024_S1x1024_1_0_0_1_n_n none lhs rhs (ix2 p q)).trans ?_
  rw [← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 p q) ((contrEquiv1 dot_S1x512_S512x1024_S1x1024_1_0_0_1_n_n 512 rfl rfl).symm k) = ix2 p k := funext fun a => Fin.ext (by
    match a with
    | ⟨0, _⟩ =>
      show (dot_S1x512_S512x1024_S1x1024_1_0_0_1_n_n.lhsIdx (ix2 p q) _ 0).val = _
      unfold DotDims.lhsIdx
      rw [dif_neg (show ¬(0 : Fin 2) ∈ dot_S1x512_S512x1024_S1x1024_1_0_0_1_n_n.lhsBatch by decide), dif_pos (show (0 : Fin 2) ∈ dot_S1x512_S512x1024_S1x1024_1_0_0_1_n_n.lhsNonContracting by decide)]
      rfl
    | ⟨1, _⟩ => exact (dot_S1x512_S512x1024_S1x1024_1_0_0_1_n_n.lhsIdx_val_of_single rfl (ix2 p q) _).trans hk)
  have er : dot_S1x512_S512x1024_S1x1024_1_0_0_1_n_n.rhsIdx (ix2 p q) ((contrEquiv1 dot_S1x512_S512x1024_S1x1024_1_0_0_1_n_n 512 rfl rfl).symm k) = ix2 k q := funext fun a => Fin.ext (by
    match a with
    | ⟨1, _⟩ =>
      show (dot_S1x512_S512x1024_S1x1024_1_0_0_1_n_n.rhsIdx (ix2 p q) _ 1).val = _
      unfold DotDims.rhsIdx
      rw [dif_neg (show ¬(1 : Fin 2) ∈ dot_S1x512_S512x1024_S1x1024_1_0_0_1_n_n.rhsBatch by decide), dif_pos (show (1 : Fin 2) ∈ dot_S1x512_S512x1024_S1x1024_1_0_0_1_n_n.rhsNonContracting by decide)]
      rfl
    | ⟨0, _⟩ => exact (dot_S1x512_S512x1024_S1x1024_1_0_0_1_n_n.rhsIdx_val_of_single rfl (ix2 p q) _).trans hk)
  rw [el, er]

/-- Entry (p,q) of the product held by `dot_S1x1024_S1024x1024_S1x1024_1_0_0_1_n_n` into a zero accumulator: `∑ k lhs[p,k]·rhs[k,q]`. -/
theorem value_apply {φ₁ φ₂ : FTy} (lhs : FVec Ideal _ φ₁) (rhs : FVec Ideal _ φ₂) (p : Fin 1) (q : Fin 1024) :
    matmul dot_S1x1024_S1024x1024_S1x1024_1_0_0_1_n_n none lhs rhs (constant (F := Ideal) S1x1024 .f32 0x00000000#32) (ix2 p q)
      = ∑ k : Fin 1024, lhs (ix2 p k) * rhs (ix2 k q) := by
  refine (Ideal.matmul_constant_zero_apply dot_S1x1024_S1024x1024_S1x1024_1_0_0_1_n_n none lhs rhs (ix2 p q)).trans ?_
  rw [← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 p q) ((contrEquiv1 dot_S1x1024_S1024x1024_S1x1024_1_0_0_1_n_n 1024 rfl rfl).symm k) = ix2 p k := funext fun a => Fin.ext (by
    match a with
    | ⟨0, _⟩ =>
      show (dot_S1x1024_S1024x1024_S1x1024_1_0_0_1_n_n.lhsIdx (ix2 p q) _ 0).val = _
      unfold DotDims.lhsIdx
      rw [dif_neg (show ¬(0 : Fin 2) ∈ dot_S1x1024_S1024x1024_S1x1024_1_0_0_1_n_n.lhsBatch by decide), dif_pos (show (0 : Fin 2) ∈ dot_S1x1024_S1024x1024_S1x1024_1_0_0_1_n_n.lhsNonContracting by decide)]
      rfl
    | ⟨1, _⟩ => exact (dot_S1x1024_S1024x1024_S1x1024_1_0_0_1_n_n.lhsIdx_val_of_single rfl (ix2 p q) _).trans hk)
  have er : dot_S1x1024_S1024x1024_S1x1024_1_0_0_1_n_n.rhsIdx (ix2 p q) ((contrEquiv1 dot_S1x1024_S1024x1024_S1x1024_1_0_0_1_n_n 1024 rfl rfl).symm k) = ix2 k q := funext fun a => Fin.ext (by
    match a with
    | ⟨1, _⟩ =>
      show (dot_S1x1024_S1024x1024_S1x1024_1_0_0_1_n_n.rhsIdx (ix2 p q) _ 1).val = _
      unfold DotDims.rhsIdx
      rw [dif_neg (show ¬(1 : Fin 2) ∈ dot_S1x1024_S1024x1024_S1x1024_1_0_0_1_n_n.rhsBatch by decide), dif_pos (show (1 : Fin 2) ∈ dot_S1x1024_S1024x1024_S1x1024_1_0_0_1_n_n.rhsNonContracting by decide)]
      rfl
    | ⟨0, _⟩ => exact (dot_S1x1024_S1024x1024_S1x1024_1_0_0_1_n_n.rhsIdx_val_of_single rfl (ix2 p q) _).trans hk)
  rw [el, er]

end Cert.AttnPool.Kernel

end
-- ==== Proof.AttnSpec.lean ====
/-
  The attention-pool function both programs compute, over the extended reals, written on coordinates.

  For a batch `b`: queries `q1[q,e] = ∑ d x1[b,q,d]·Wq[e,d] + bq[e]`, keys `k2[k,e] = ∑ d x2[b,k,d]·Wk[e,d] + bk[e]`,
  scores `s[q,k] = ∑ e q1[q,e]·k2[k,e]`, and the row-wise softmax weights `a[q,k] = exp(s[q,k] − max_k s[q,·]) / ∑ k' exp(…)`.
  The result at feature `d` sums, over all queries, the weights applied to the values `v2[k,d] = ∑ j x2[b,k,j]·Wv[d,j] + bv[d]`:

    `pooledRef  = ∑ q ∑ k a[q,k] · v2[k,d]`                                  (values first, then weights, then the sum over queries)
    `pooledFold = ∑ j (∑ k (∑ q a[q,k]) · x2[b,k,j]) · Wv[d,j] + (∑ k ∑ q a[q,k]) · bv[d]`   (queries summed first, the value projection last)

  The two agree whenever every weight and every entry of x2, Wv, bv is a real number (distributivity needs it).
-/
import Idealize.ShloMosaic.PureOps.Ideal
import Idealize.ShloMosaic.PureOps.Ideal.Laws

noncomputable section

open scoped BigOperators

namespace Cert.AttnPool

open Idealize.ShloMosaic

/-- A row of an affine layer in the `y = x·Wᵀ + b` form: entry `e` is `∑ d x[d]·W[e,d] + b[e]`. -/
def lin {D E : ℕ} (x : Fin D → EReal) (W : Fin E → Fin D → EReal) (b : Fin E → EReal) (e : Fin E) : EReal :=
  (∑ d, x d * W e d) + b e

/-- The score of query row `x` against key row `y`: the scalar product of their projections. -/
def score {D E : ℕ} (Wq Wk : Fin E → Fin D → EReal) (bq bk : Fin E → EReal) (x y : Fin D → EReal) : EReal :=
  ∑ e, lin x Wq bq e * lin y Wk bk e

/-- The maximum of a row, folded from the bottom element. -/
def rowMax {n : ℕ} (f : Fin n → EReal) : EReal := (Finset.univ : Finset (Fin n)).fold max ⊥ f

/-- Softmax weights of a row of scores: `exp(s k − max s) / ∑ j exp(s j − max s)`. -/
def softW {n : ℕ} (s : Fin n → EReal) (k : Fin n) : EReal :=
  Ideal.div (Ideal.exp (s k - rowMax s)) (∑ j, Ideal.exp (s j - rowMax s))

section
variable {Q K D E : ℕ}
variable (x1 : Fin Q → Fin D → EReal) (x2 : Fin K → Fin D → EReal)
variable (Wq Wk : Fin E → Fin D → EReal) (Wv : Fin E → Fin D → EReal) (bq bk : Fin E → EReal) (bv : Fin E → EReal)

/-- The attention weight of query `q` on key `k` within one batch. -/
def attn (q : Fin Q) (k : Fin K) : EReal := softW (fun k' => score Wq Wk bq bk (x1 q) (x2 k')) k

/-- Values first: `∑ q ∑ k a[q,k] · (∑ j x2[k,j]·Wv[d,j] + bv[d])`. -/
def pooledRef (d : Fin E) : EReal :=
  ∑ q, ∑ k, attn x1 x2 Wq Wk bq bk q k * lin (x2 k) Wv bv d

/-- Queries first: `∑ j (∑ k (∑ q a[q,k])·x2[k,j])·Wv[d,j] + (∑ k ∑ q a[q,k])·bv[d]`. -/
def pooledFold (d : Fin E) : EReal :=
  (∑ j, (∑ k, (∑ q, attn x1 x2 Wq Wk bq bk q k) * x2 k j) * Wv d j) + (∑ k, ∑ q, attn x1 x2 Wq Wk bq bk q k) * bv d
end

end Cert.AttnPool

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«160542_j73005854097706_2_alg».proof.Proof.LibRowLayers
import proofs.«160542_j73005854097706_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.KernelSoftmax.lean ====
/-
  The kernel's softmax block read entry by entry, for any 512×512 score matrix `sc`: the row maximum (folded from −∞),
  the shifted exponentials, the row sums, and the quotient are, at entry (q,k), the softmax weight of row q at k; summed
  down the columns and viewed as a 1×512 row, entry (0,k) is `∑ q softW (row q) k`; and the total of that row.
-/
import proofs.«160542_j73005854097706_2_alg».proof.Proof.Gen.KernelIdeal
import proofs.«160542_j73005854097706_2_alg».proof.Proof.AttnSpec
import proofs.«160542_j73005854097706_2_alg».proof.Proof.LibChebRows
import Idealize.ShloMosaic.PureOps.Ideal.Laws
import Idealize.ShloMosaic.Lib.ValueIdx
import Idealize.ShloMosaic.Lib.ValueLayout

noncomputable section

open scoped BigOperators

namespace Cert.AttnPool.Kernel

open Idealize.ShloMosaic Idealize.ShloMosaic.ValueIdx Cert.KernelIdeal Cert.KernelIdeal.Gen Cert.AttnPool
open Cert.ChebRows Cert.RowLayers

/-- The bit pattern of −∞ denotes the bottom element. -/
theorem ofBits_neg_inf : Ideal.ofBits .f32 0xFF800000#32 = (⊥ : EReal) := by simp [Ideal.ofBits, Ideal.ieee]

/-- The row maxima, as the device takes them. -/
def mxOf (sc : FVec Ideal S512x512 .f32) : FVec Ideal S512 .f32 :=
  multiReduction .maximumf [1] S512 sc 0xFF800000#32 reduces_S512x512_S512 (.inl rfl) rfl

/-- The shifted exponentials `exp(sc − max)`. -/
def expOf (sc : FVec Ideal S512x512 .f32) : FVec Ideal S512x512 .f32 :=
  exp (subf sc (broadcastTo S512x512 (shapeCast S512x1 (mxOf sc) shapeCasts_S512_S512x1) broadcasts_S512x1_S512x512))

/-- The softmax weights `exp / rowsum`. -/
def attnOf (sc : FVec Ideal S512x512 .f32) : FVec Ideal S512x512 .f32 :=
  divf (expOf sc) (broadcastTo S512x512 (shapeCast S512x1
    (multiReduction .add [1] S512 (expOf sc) 0x00000000#32 reduces_S512x512_S512 (.inl rfl) rfl) shapeCasts_S512_S512x1) broadcasts_S512x1_S512x512)

/-- The weights summed down each column, as a 1×512 row. -/
def colsumOf (sc : FVec Ideal S512x512 .f32) : FVec Ideal S1x512 .f32 :=
  shapeCast S1x512 (multiReduction .add [0] S512 (attnOf sc) 0x00000000#32 reduces_S512x512_S512_2 (.inl rfl) rfl) shapeCasts_S512_S1x512

theorem mx_bcast_apply (sc : FVec Ideal S512x512 .f32) (q j : Fin 512) :
    (broadcastTo S512x512 (shapeCast S512x1 (mxOf sc) shapeCasts_S512_S512x1) broadcasts_S512x1_S512x512) (ix2 q j)
      = AttnPool.rowMax (fun k' => sc (ix2 q k')) := by
  rw [column_device_apply]
  unfold mxOf
  refine (multiReduction_max_row sc 0xFF800000#32 reduces_S512x512_S512 (.inl rfl) rfl q).trans ?_
  rw [ofBits_neg_inf]
  rfl

theorem expOf_apply (sc : FVec Ideal S512x512 .f32) (q j : Fin 512) :
    expOf sc (ix2 q j) = Ideal.exp (sc (ix2 q j) - AttnPool.rowMax (fun k' => sc (ix2 q k'))) := by
  show Ideal.exp (sc (ix2 q j) - (broadcastTo S512x512 (shapeCast S512x1 (mxOf sc) shapeCasts_S512_S512x1) broadcasts_S512x1_S512x512) (ix2 q j)) = _
  rw [mx_bcast_apply]

theorem attnOf_apply (sc : FVec Ideal S512x512 .f32) (q k : Fin 512) :
    attnOf sc (ix2 q k) = softW (fun k' => sc (ix2 q k')) k := by
  show Ideal.div (expOf sc (ix2 q k)) ((broadcastTo S512x512 (shapeCast S512x1
    (multiReduction .add [1] S512 (expOf sc) 0x00000000#32 reduces_S512x512_S512 (.inl rfl) rfl) shapeCasts_S512_S512x1) broadcasts_S512x1_S512x512) (ix2 q k)) = _
  have hl : multiReduction .add [1] S512 (expOf sc) 0x00000000#32 reduces_S512x512_S512 (.inl rfl) rfl (ix1 q) = ∑ j : Fin 512, expOf sc (ix2 q j) :=
    multiReduction_add_row (expOf sc) 0x00000000#32 reduces_S512x512_S512 (.inl rfl) rfl q
  rw [column_device_apply, hl, expOf_apply]
  unfold softW
  exact congrArg (Ideal.div _) (Finset.sum_congr rfl fun j _ => expOf_apply sc q j)

/-- The reduced index `k` with the row coordinate `q` put back is `(q, k)`. -/
theorem lift_rows (h : S512x512.Reduces [0] S512) (k : Fin 512) (q : Fin (S512x512.size 0)) :
    h.lift (ix1 k) q = ix2 (⟨q.val, q.isLt⟩ : Fin 512) k := by
  funext c; apply Fin.ext
  fin_cases c <;> rfl

theorem colsumOf_apply (sc : FVec Ideal S512x512 .f32) (k : Fin 512) :
    colsumOf sc (ix2 (0 : Fin 1) k) = ∑ q : Fin 512, softW (fun k' => sc (ix2 q k')) k := by
  unfold colsumOf
  rw [shapeCast_a_1a_apply]
  refine (Ideal.multiReduction_add_single (attnOf sc) 0x00000000#32 reduces_S512x512_S512_2 (.inl rfl) rfl (ix1 k)).trans ?_
  show (∑ q : Fin 512, attnOf sc (reduces_S512x512_S512_2.lift (ix1 k) q)) = _
  exact Finset.sum_congr rfl fun q _ =>
    (congrArg (attnOf sc) (lift_rows reduces_S512x512_S512_2 k q)).trans (attnOf_apply sc ⟨q.val, q.isLt⟩ k)

/-- The total of a 1×512 row, as a 1×1 array. -/
theorem total_apply (s : FVec Ideal S1x512 .f32) :
    (shapeCast S1x1 (multiReduction .add [1] S1 s 0x00000000#32 reduces_S1x512_S1 (.inl rfl) rfl) shapeCasts_S1_S1x1) (ix2 (0 : Fin 1) (0 : Fin 1))
      = ∑ k : Fin 512, s (ix2 (0 : Fin 1) k) := by
  rw [shapeCast_a_a1_apply]
  exact multiReduction_add_row s 0x00000000#32 reduces_S1x512_S1 (.inl rfl) rfl 0

end Cert.AttnPool.Kernel

end
-- ==== Proof.KernelPayload.lean ====
/-
  The value the kernel stores for one batch, read at feature `d`: with the batch's two 512×1024 blocks, the three
  pre-transposed weight matrices and the three 1×1024 bias rows, the stored 1×1×1024 block at (0,0,d) is the
  queries-first pooling `pooledFold` of the attention weights — `∑ j (∑ k (∑ q a[q,k])·x2[k,j])·WvT[j,d] + (∑ k ∑ q a[q,k])·bv[d]`.
-/
import proofs.«160542_j73005854097706_2_alg».proof.Proof.Gen.KernelIdeal.Skeleton
import proofs.«160542_j73005854097706_2_alg».proof.Proof.KernelDots
import proofs.«160542_j73005854097706_2_alg».proof.Proof.KernelSoftmax

noncomputable section

open scoped BigOperators

namespace Cert.AttnPool.Kernel

open Idealize.ShloMosaic Idealize.ShloMosaic.ValueIdx Cert.KernelIdeal Cert.KernelIdeal.Gen Cert.AttnPool
open Cert.ChebRows Cert.RowLayers

/-- One projection of a batch block: `x·WT + b`, rows 0…511, with the weight matrix already transposed. -/
def projOf (x : Vec Ideal S1x512x1024 .f32) (w : Vec Ideal S1024x1024 .bf16) (bb : Vec Ideal S1x1024 .f32) : FVec Ideal S512x1024 .f32 :=
  addf (matmul dot_S512x1024_S1024x1024_S512x1024_1_0_0_1_n_n none
      (truncf .bf16 (shapeCast S512x1024 x shapeCasts_S1x512x1024_S512x1024 : FVec Ideal S512x1024 .f32) bitsLt_bf16_f32)
      (shapeCast S1024x1024 w shapeCasts_S1024x1024_S1024x1024 : FVec Ideal S1024x1024 .bf16) (constant S512x1024 .f32 0x00000000#32))
    (broadcastTo S512x1024 (shapeCast S1x1024 bb shapeCasts_S1x1024_S1x1024 : FVec Ideal S1x1024 .f32) broadcasts_S1x1024_S512x1024)

theorem projOf_apply (x : Vec Ideal S1x512x1024 .f32) (w : Vec Ideal S1024x1024 .bf16) (bb : Vec Ideal S1x1024 .f32) (p : Fin 512) (e : Fin 1024) :
    projOf x w bb (ix2 p e)
      = lin (fun j : Fin 1024 => x (ix3 (0 : Fin 1) p j)) (fun (e j : Fin 1024) => w (ix2 j e)) (fun e : Fin 1024 => bb (ix2 (0 : Fin 1) e)) e := by
  show (matmul dot_S512x1024_S1024x1024_S512x1024_1_0_0_1_n_n none
      (truncf .bf16 (shapeCast S512x1024 x shapeCasts_S1x512x1024_S512x1024 : FVec Ideal S512x1024 .f32) bitsLt_bf16_f32)
      (shapeCast S1024x1024 w shapeCasts_S1024x1024_S1024x1024 : FVec Ideal S1024x1024 .bf16) (constant S512x1024 .f32 0x00000000#32)) (ix2 p e)
    + (broadcastTo S512x1024 (shapeCast S1x1024 bb shapeCasts_S1x1024_S1x1024 : FVec Ideal S1x1024 .f32) broadcasts_S1x1024_S512x1024) (ix2 p e) = _
  rw [proj_apply, broadcastTo_1b_ab_apply, shapeCast_self, shapeCast_self]
  unfold lin
  refine congrArg (· + bb (ix2 (0 : Fin 1) e)) (Finset.sum_congr rfl fun k _ => ?_)
  show (shapeCast S512x1024 x shapeCasts_S1x512x1024_S512x1024 : FVec Ideal S512x1024 .f32) (ix2 p k) * w (ix2 k e) = _
  rw [shapeCast_1ab_ab_apply]

/-- The 512×512 score matrix of a batch: queries against keys. -/
def scoresOf (x0 x1 : Vec Ideal S1x512x1024 .f32) (wq : Vec Ideal S1024x1024 .bf16) (bq : Vec Ideal S1x1024 .f32)
    (wk : Vec Ideal S1024x1024 .bf16) (bk : Vec Ideal S1x1024 .f32) : FVec Ideal S512x512 .f32 :=
  matmul dot_S512x1024_S512x1024_S512x512_1_1_0_0_n_n none
    (truncf .bf16 (projOf x0 wq bq) bitsLt_bf16_f32) (truncf .bf16 (projOf x1 wk bk) bitsLt_bf16_f32) (constant S512x512 .f32 0x00000000#32)

theorem scoresOf_apply (x0 x1 : Vec Ideal S1x512x1024 .f32) (wq : Vec Ideal S1024x1024 .bf16) (bq : Vec Ideal S1x1024 .f32)
    (wk : Vec Ideal S1024x1024 .bf16) (bk : Vec Ideal S1x1024 .f32) (q k : Fin 512) :
    scoresOf x0 x1 wq bq wk bk (ix2 q k)
      = score (fun (e j : Fin 1024) => wq (ix2 j e)) (fun (e j : Fin 1024) => wk (ix2 j e))
          (fun e : Fin 1024 => bq (ix2 (0 : Fin 1) e)) (fun e : Fin 1024 => bk (ix2 (0 : Fin 1) e))
          (fun j : Fin 1024 => x0 (ix3 (0 : Fin 1) q j)) (fun j : Fin 1024 => x1 (ix3 (0 : Fin 1) k j)) := by
  unfold scoresOf
  rw [scores_apply]
  unfold score
  refine Finset.sum_congr rfl fun e _ => ?_
  show projOf x0 wq bq (ix2 q e) * projOf x1 wk bk (ix2 k e) = _
  rw [projOf_apply, projOf_apply]

/-- The column sums of the softmax weights, as the body computes them, are those of the score matrix. -/
theorem pay3_eq (x0 x1 : Vec Ideal S1x512x1024 .f32) (wq : Vec Ideal S1024x1024 .bf16) (bq : Vec Ideal S1x1024 .f32)
    (wk : Vec Ideal S1024x1024 .bf16) (bk : Vec Ideal S1x1024 .f32) :
    k0_pay3 x0 x1 wq bq wk bk = colsumOf (scoresOf x0 x1 wq bq wk bk) := rfl

/-- Entry (0,k) of the column sums: the attention weights of all queries on key `k`. -/
theorem colsum_attn (x0 x1 : Vec Ideal S1x512x1024 .f32) (wq : Vec Ideal S1024x1024 .bf16) (bq : Vec Ideal S1x1024 .f32)
    (wk : Vec Ideal S1024x1024 .bf16) (bk : Vec Ideal S1x1024 .f32) (k : Fin 512) :
    k0_pay3 x0 x1 wq bq wk bk (ix2 (0 : Fin 1) k)
      = ∑ q : Fin 512, attn (fun (q : Fin 512) (j : Fin 1024) => x0 (ix3 (0 : Fin 1) q j)) (fun (k : Fin 512) (j : Fin 1024) => x1 (ix3 (0 : Fin 1) k j))
          (fun (e j : Fin 1024) => wq (ix2 j e)) (fun (e j : Fin 1024) => wk (ix2 j e))
          (fun e : Fin 1024 => bq (ix2 (0 : Fin 1) e)) (fun e : Fin 1024 => bk (ix2 (0 : Fin 1) e)) q k := by
  rw [pay3_eq, colsumOf_apply]
  refine Finset.sum_congr rfl fun q _ => ?_
  unfold attn
  exact congrArg (fun s => softW s k) (funext fun k' => scoresOf_apply x0 x1 wq bq wk bk q k')

/-- The stored block at (0,0,d). -/
theorem pay_entry (x0 x1 : Vec Ideal S1x512x1024 .f32) (wq wk wv : Vec Ideal S1024x1024 .bf16) (bq bk bv : Vec Ideal S1x1024 .f32) (d : Fin 1024) :
    k0_pay1 (k0_pay2 x1) (k0_pay4 x0 x1 wq bq wk bk) (k0_pay5 x0 x1 wq bq wk bk) (constant S1x1024 .f32 0x00000000#32) wv bv (ix3 (0 : Fin 1) (0 : Fin 1) d)
      = pooledFold (fun (q : Fin 512) (j : Fin 1024) => x0 (ix3 (0 : Fin 1) q j)) (fun (k : Fin 512) (j : Fin 1024) => x1 (ix3 (0 : Fin 1) k j))
          (fun (e j : Fin 1024) => wq (ix2 j e)) (fun (e j : Fin 1024) => wk (ix2 j e)) (fun (e j : Fin 1024) => wv (ix2 j e))
          (fun e : Fin 1024 => bq (ix2 (0 : Fin 1) e)) (fun e : Fin 1024 => bk (ix2 (0 : Fin 1) e)) (fun e : Fin 1024 => bv (ix2 (0 : Fin 1) e)) d := by
  unfold k0_pay1
  rw [shapeCast_ab_1ab_apply]
  show (matmul dot_S1x1024_S1024x1024_S1x1024_1_0_0_1_n_n none
        (truncf .bf16 (matmul dot_S1x512_S512x1024_S1x1024_1_0_0_1_n_n none (k0_pay5 x0 x1 wq bq wk bk) (k0_pay2 x1) (constant S1x1024 .f32 0x00000000#32)) bitsLt_bf16_f32)
        (shapeCast S1024x1024 wv shapeCasts_S1024x1024_S1024x1024 : FVec Ideal S1024x1024 .bf16) (constant S1x1024 .f32 0x00000000#32)) (ix2 (0 : Fin 1) d)
      + (broadcastTo S1x1024 (k0_pay4 x0 x1 wq bq wk bk) broadcasts_S1x1_S1x1024) (ix2 (0 : Fin 1) d)
        * (shapeCast S1x1024 bv shapeCasts_S1x1024_S1x1024 : FVec Ideal S1x1024 .f32) (ix2 (0 : Fin 1) d) = _
  rw [value_apply, Cert.ColumnBroadcast.broadcastTo_a1_ab_apply, shapeCast_self, shapeCast_self]
  unfold pooledFold
  refine congrArg₂ (· + ·) (Finset.sum_congr rfl fun j _ => ?_) (congrArg (· * bv (ix2 (0 : Fin 1) d)) ?_)
  · refine congrArg (· * wv (ix2 j d)) ?_
    show (matmul dot_S1x512_S512x1024_S1x1024_1_0_0_1_n_n none (k0_pay5 x0 x1 wq bq wk bk) (k0_pay2 x1) (constant S1x1024 .f32 0x00000000#32)) (ix2 (0 : Fin 1) j) = _
    rw [pool_apply]
    refine Finset.sum_congr rfl fun k _ => ?_
    show k0_pay3 x0 x1 wq bq wk bk (ix2 (0 : Fin 1) k) * (shapeCast S512x1024 x1 shapeCasts_S1x512x1024_S512x1024 : FVec Ideal S512x1024 .f32) (ix2 k j) = _
    rw [colsum_attn, shapeCast_1ab_ab_apply]
  · show (shapeCast S1x1 (multiReduction .add [1] S1 (k0_pay3 x0 x1 wq bq wk bk) 0x00000000#32 reduces_S1x512_S1 (.inl rfl) rfl) shapeCasts_S1_S1x1) (ix2 (0 : Fin 1) (0 : Fin 1)) = _
    rw [total_apply]
    exact Finset.sum_congr rfl fun k _ => colsum_attn x0 x1 wq bq wk bk k

end Cert.AttnPool.Kernel

end
-- ==== Proof.KernelBlocks.lean ====
/-
  What each input window's block holds at a grid point, read at coordinates, in terms of the argument arrays:
  the two activations' blocks at point `t` are batch `t` of the arguments; the three weight windows are whole arrays that
  the host wrote as the transposes of the weight arguments; the three bias windows are the bias vectors viewed as rows.
-/
import proofs.«160542_j73005854097706_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.AttnPool.Kernel

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The printed index maps over the grid: the activations' and the output's blocks move with the point along the batch
    axis; every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The host wrote `main_v1` as the transpose of `main_arg2` (the change of format is the identity). -/
theorem V_main_v1 (c : Dev nD) : (V m c main_v1 : S1024x1024.Idx → EReal)
    = truncf (F := Ideal) .bf16 (transpose S1024x1024 [1, 0] (m ((c : Thread nD τ).loc main_arg2)) transposes_S1024x1024_S1024x1024_1_0) bitsLt_bf16_f32 := by
  show StableHlo.after hostOps0 (fun b => m (c, b)) (Proc.devRef .tc main_v1) = _
  after_results

/-- Window 2's block at any point, at (j, e): the weight argument at (e, j). -/
theorem iblk2_apply (c : Dev nD) (t : Fin cfg0.N) (j e : Fin 1024) :
    iblk m c 2 t (ix2 j e) = m ((c : Thread nD τ).loc main_arg2) (ix2 e j) := by
  show V m c main_v1 (((cfg0.win 2).blk t).view.emb (ix2 j e)) = _
  have hemb : ((cfg0.win 2).blk t).view.emb (ix2 j e) = ix2 j e := funext fun a => Fin.ext (by
    obtain ⟨-, -, -, -, -, -, e20, e21, e30, e31, e40, e41, -⟩ := idx_facts t
    match a with
    | ⟨0, _⟩ => show win0_2.index t (0 : Fin 2) * 1024 + 1 * j.val = j.val; omega
    | ⟨1, _⟩ => show win0_2.index t (1 : Fin 2) * 1024 + 1 * e.val = e.val; omega)
  rw [hemb, V_main_v1]
  exact transpose_ix2_apply (m ((c : Thread nD τ).loc main_arg2)) transposes_S1024x1024_S1024x1024_1_0 j e

/-- The host wrote `main_v3` as the transpose of `main_arg10` (the change of format is the identity). -/
theorem V_main_v3 (c : Dev nD) : (V m c main_v3 : S1024x1024.Idx → EReal)
    = truncf (F := Ideal) .bf16 (transpose S1024x1024 [1, 0] (m ((c : Thread nD τ).loc main_arg10)) transposes_S1024x1024_S1024x1024_1_0) bitsLt_bf16_f32 := by
  show StableHlo.after hostOps0 (fun b => m (c, b)) (Proc.devRef .tc main_v3) = _
  after_results

/-- Window 3's block at any point, at (j, e): the weight argument at (e, j). -/
theorem iblk3_apply (c : Dev nD) (t : Fin cfg0.N) (j e : Fin 1024) :
    iblk m c 3 t (ix2 j e) = m ((c : Thread nD τ).loc main_arg10) (ix2 e j) := by
  show V m c main_v3 (((cfg0.win 3).blk t).view.emb (ix2 j e)) = _
  have hemb : ((cfg0.win 3).blk t).view.emb (ix2 j e) = ix2 j e := funext fun a => Fin.ext (by
    obtain ⟨-, -, -, -, -, -, e20, e21, e30, e31, e40, e41, -⟩ := idx_facts t
    match a with
    | ⟨0, _⟩ => show win0_3.index t (0 : Fin 2) * 1024 + 1 * j.val = j.val; omega
    | ⟨1, _⟩ => show win0_3.index t (1 : Fin 2) * 1024 + 1 * e.val = e.val; omega)
  rw [hemb, V_main_v3]
  exact transpose_ix2_apply (m ((c : Thread nD τ).loc main_arg10)) transposes_S1024x1024_S1024x1024_1_0 j e

/-- The host wrote `main_v5` as the transpose of `main_arg12` (the change of format is the identity). -/
theorem V_main_v5 (c : Dev nD) : (V m c main_v5 : S1024x1024.Idx → EReal)
    = truncf (F := Ideal) .bf16 (transpose S1024x1024 [1, 0] (m ((c : Thread nD τ).loc main_arg12)) transposes_S1024x1024_S1024x1024_1_0) bitsLt_bf16_f32 := by
  show StableHlo.after hostOps0 (fun b => m (c, b)) (Proc.devRef .tc main_v5) = _
  after_results

/-- Window 4's block at any point, at (j, e): the weight argument at (e, j). -/
theorem iblk4_apply (c : Dev nD) (t : Fin cfg0.N) (j e : Fin 1024) :
    iblk m c 4 t (ix2 j e) = m ((c : Thread nD τ).loc main_arg12) (ix2 e j) := by
  show V m c main_v5 (((cfg0.win 4).blk t).view.emb (ix2 j e)) = _
  have hemb : ((cfg0.win 4).blk t).view.emb (ix2 j e) = ix2 j e := funext fun a => Fin.ext (by
    obtain ⟨-, -, -, -, -, -, e20, e21, e30, e31, e40, e41, -⟩ := idx_facts t
    match a with
    | ⟨0, _⟩ => show win0_4.index t (0 : Fin 2) * 1024 + 1 * j.val = j.val; omega
    | ⟨1, _⟩ => show win0_4.index t (1 : Fin 2) * 1024 + 1 * e.val = e.val; omega)
  rw [hemb, V_main_v5]
  exact transpose_ix2_apply (m ((c : Thread nD τ).loc main_arg12)) transposes_S1024x1024_S1024x1024_1_0 j e

/-- The host wrote `main_v6` as `main_arg3` viewed as one row. -/
theorem V_main_v6 (c : Dev nD) : (V m c main_v6 : S1x1024.Idx → EReal)
    = shapeCast S1x1024 (m ((c : Thread nD τ).loc main_arg3)) shapeCasts_S1024_S1x1024 := by
  show StableHlo.after hostOps0 (fun b => m (c, b)) (Proc.devRef .tc main_v6) = _
  after_results
  rfl

/-- Window 5's block at any point, at (0, e): the bias argument at e. -/
theorem iblk5_apply (c : Dev nD) (t : Fin cfg0.N) (e : Fin 1024) :
    iblk m c 5 t (ix2 (0 : Fin 1) e) = m ((c : Thread nD τ).loc main_arg3) (ix1 e) := by
  show V m c main_v6 (((cfg0.win 5).blk t).view.emb (ix2 (0 : Fin 1) e)) = _
  have hemb : ((cfg0.win 5).blk t).view.emb (ix2 (0 : Fin 1) e) = ix2 (0 : Fin 1) e := funext fun a => Fin.ext (by
    obtain ⟨-, -, -, -, -, -, -, -, -, -, -, -, e50, e51, e60, e61, e70, e71, -⟩ := idx_facts t
    match a with
    | ⟨0, _⟩ => show win0_5.index t (0 : Fin 2) * 1 + 1 * 0 = 0; omega
    | ⟨1, _⟩ => show win0_5.index t (1 : Fin 2) * 1024 + 1 * e.val = e.val; omega)
  rw [hemb, V_main_v6]
  exact shapeCast_a_1a_apply (m ((c : Thread nD τ).loc main_arg3)) shapeCasts_S1024_S1x1024 0 e

/-- The host wrote `main_v7` as `main_arg11` viewed as one row. -/
theorem V_main_v7 (c : Dev nD) : (V m c main_v7 : S1x1024.Idx → EReal)
    = shapeCast S1x1024 (m ((c : Thread nD τ).loc main_arg11)) shapeCasts_S1024_S1x1024 := by
  show StableHlo.after hostOps0 (fun b => m (c, b)) (Proc.devRef .tc main_v7) = _
  after_results
  rfl

/-- Window 6's block at any point, at (0, e): the bias argument at e. -/
theorem iblk6_apply (c : Dev nD) (t : Fin cfg0.N) (e : Fin 1024) :
    iblk m c 6 t (ix2 (0 : Fin 1) e) = m ((c : Thread nD τ).loc main_arg11) (ix1 e) := by
  show V m c main_v7 (((cfg0.win 6).blk t).view.emb (ix2 (0 : Fin 1) e)) = _
  have hemb : ((cfg0.win 6).blk t).view.emb (ix2 (0 : Fin 1) e) = ix2 (0 : Fin 1) e := funext fun a => Fin.ext (by
    obtain ⟨-, -, -, -, -, -, -, -, -, -, -, -, e50, e51, e60, e61, e70, e71, -⟩ := idx_facts t
    match a with
    | ⟨0, _⟩ => show win0_6.index t (0 : Fin 2) * 1 + 1 * 0 = 0; omega
    | ⟨1, _⟩ => show win0_6.index t (1 : Fin 2) * 1024 + 1 * e.val = e.val; omega)
  rw [hemb, V_main_v7]
  exact shapeCast_a_1a_apply (m ((c : Thread nD τ).loc main_arg11)) shapeCasts_S1024_S1x1024 0 e

/-- The host wrote `main_v8` as `main_arg13` viewed as one row. -/
theorem V_main_v8 (c : Dev nD) : (V m c main_v8 : S1x1024.Idx → EReal)
    = shapeCast S1x1024 (m ((c : Thread nD τ).loc main_arg13)) shapeCasts_S1024_S1x1024 := by
  show StableHlo.after hostOps0 (fun b => m (c, b)) (Proc.devRef .tc main_v8) = _
  after_results
  rfl

/-- Window 7's block at any point, at (0, e): the bias argument at e. -/
theorem iblk7_apply (c : Dev nD) (t : Fin cfg0.N) (e : Fin 1024) :
    iblk m c 7 t (ix2 (0 : Fin 1) e) = m ((c : Thread nD τ).loc main_arg13) (ix1 e) := by
  show V m c main_v8 (((cfg0.win 7).blk t).view.emb (ix2 (0 : Fin 1) e)) = _
  have hemb : ((cfg0.win 7).blk t).view.emb (ix2 (0 : Fin 1) e) = ix2 (0 : Fin 1) e := funext fun a => Fin.ext (by
    obtain ⟨-, -, -, -, -, -, -, -, -, -, -, -, e50, e51, e60, e61, e70, e71, -⟩ := idx_facts t
    match a with
    | ⟨0, _⟩ => show win0_7.index t (0 : Fin 2) * 1 + 1 * 0 = 0; omega
    | ⟨1, _⟩ => show win0_7.index t (1 : Fin 2) * 1024 + 1 * e.val = e.val; omega)
  rw [hemb, V_main_v8]
  exact shapeCast_a_1a_apply (m ((c : Thread nD τ).loc main_arg13)) shapeCasts_S1024_S1x1024 0 e

/-- Window 0's block at point `t`, at (0, q, j): batch `t` of `main_arg0` at (q, j). -/
theorem iblk0_apply (c : Dev nD) (t : Fin cfg0.N) (b : Fin 64) (hb : b.val = t.val) (q : Fin 512) (j : Fin 1024) :
    iblk m c 0 t (ix3 (0 : Fin 1) q j) = m ((c : Thread nD τ).loc main_arg0) (ix3 b q j) := by
  show V m c main_arg0 (((cfg0.win 0).blk t).view.emb (ix3 (0 : Fin 1) q j)) = _
  rw [V_main_arg0]
  refine congrArg _ (funext fun a => Fin.ext ?_)
  obtain ⟨e00, e01, e02, e10, e11, e12, -⟩ := idx_facts t
  match a with
  | ⟨0, _⟩ => show win0_0.index t (0 : Fin 3) * 1 + 1 * 0 = b.val; omega
  | ⟨1, _⟩ => show win0_0.index t (1 : Fin 3) * 512 + 1 * q.val = q.val; omega
  | ⟨2, _⟩ => show win0_0.index t (2 : Fin 3) * 1024 + 1 * j.val = j.val; omega

/-- Window 1's block at point `t`, at (0, q, j): batch `t` of `main_arg1` at (q, j). -/
theorem iblk1_apply (c : Dev nD) (t : Fin cfg0.N) (b : Fin 64) (hb : b.val = t.val) (q : Fin 512) (j : Fin 1024) :
    iblk m c 1 t (ix3 (0 : Fin 1) q j) = m ((c : Thread nD τ).loc main_arg1) (ix3 b q j) := by
  show V m c main_arg1 (((cfg0.win 1).blk t).view.emb (ix3 (0 : Fin 1) q j)) = _
  rw [V_main_arg1]
  refine congrArg _ (funext fun a => Fin.ext ?_)
  obtain ⟨e00, e01, e02, e10, e11, e12, -⟩ := idx_facts t
  match a with
  | ⟨0, _⟩ => show win0_1.index t (0 : Fin 3) * 1 + 1 * 0 = b.val; omega
  | ⟨1, _⟩ => show win0_1.index t (1 : Fin 3) * 512 + 1 * q.val = q.val; omega
  | ⟨2, _⟩ => show win0_1.index t (2 : Fin 3) * 1024 + 1 * j.val = j.val; omega

end Cert.AttnPool.Kernel

end
-- ==== Proof.AttnResult.lean ====
/-
  The result array both programs end with, as one function of the eight argument arrays that matter: entry (b, d) is the
  attention pooling of batch b at feature d. Given twice: in the queries-first association (`resultAt`), and in the
  values-first one (`resultAtRef`); and laid out as the [64,1024] result and as the [64,1,1024] array of the region.
-/
import proofs.«160542_j73005854097706_2_alg».proof.Proof.AttnSpec
import Idealize.ShloMosaic.Lib.ValueIdx

noncomputable section

namespace Cert.AttnPool

open Idealize.ShloMosaic Idealize.ShloMosaic.ValueIdx

abbrev A3 := (⟨3, ![64, 512, 1024]⟩ : Shape).Idx → EReal
abbrev A2 := (⟨2, ![1024, 1024]⟩ : Shape).Idx → EReal
abbrev A1 := (⟨1, ![1024]⟩ : Shape).Idx → EReal

/-- Entry (b, d), queries summed first. -/
def resultAt (a0 a1 : A3) (a2 : A2) (a3 : A1) (a10 : A2) (a11 : A1) (a12 : A2) (a13 : A1) (b : Fin 64) (d : Fin 1024) : EReal :=
  pooledFold (fun (q : Fin 512) (j : Fin 1024) => a0 (ix3 b q j)) (fun (k : Fin 512) (j : Fin 1024) => a1 (ix3 b k j))
    (fun (e j : Fin 1024) => a2 (ix2 e j)) (fun (e j : Fin 1024) => a10 (ix2 e j)) (fun (e j : Fin 1024) => a12 (ix2 e j))
    (fun (e : Fin 1024) => a3 (ix1 e)) (fun (e : Fin 1024) => a11 (ix1 e)) (fun (e : Fin 1024) => a13 (ix1 e)) d

/-- Entry (b, d), values projected first. -/
def resultAtRef (a0 a1 : A3) (a2 : A2) (a3 : A1) (a10 : A2) (a11 : A1) (a12 : A2) (a13 : A1) (b : Fin 64) (d : Fin 1024) : EReal :=
  pooledRef (fun (q : Fin 512) (j : Fin 1024) => a0 (ix3 b q j)) (fun (k : Fin 512) (j : Fin 1024) => a1 (ix3 b k j))
    (fun (e j : Fin 1024) => a2 (ix2 e j)) (fun (e j : Fin 1024) => a10 (ix2 e j)) (fun (e j : Fin 1024) => a12 (ix2 e j))
    (fun (e : Fin 1024) => a3 (ix1 e)) (fun (e : Fin 1024) => a11 (ix1 e)) (fun (e : Fin 1024) => a13 (ix1 e)) d

/-- The [64,1024] result array. -/
def resultArr (a0 a1 : A3) (a2 : A2) (a3 : A1) (a10 : A2) (a11 : A1) (a12 : A2) (a13 : A1) : (⟨2, ![64, 1024]⟩ : Shape).Idx → EReal :=
  fun i => resultAt a0 a1 a2 a3 a10 a11 a12 a13 ⟨(i 0).val, (i 0).isLt⟩ ⟨(i 1).val, (i 1).isLt⟩

/-- The same entries as the [64,1,1024] array the region writes. -/
def resultBlocks (a0 a1 : A3) (a2 : A2) (a3 : A1) (a10 : A2) (a11 : A1) (a12 : A2) (a13 : A1) : (⟨3, ![64, 1, 1024]⟩ : Shape).Idx → EReal :=
  fun i => resultAt a0 a1 a2 a3 a10 a11 a12 a13 ⟨(i 0).val, (i 0).isLt⟩ ⟨(i 2).val, (i 2).isLt⟩

theorem resultArr_ix2 (a0 a1 : A3) (a2 : A2) (a3 : A1) (a10 : A2) (a11 : A1) (a12 : A2) (a13 : A1) (b : Fin 64) (d : Fin 1024) :
    resultArr a0 a1 a2 a3 a10 a11 a12 a13 (ix2 b d) = resultAt a0 a1 a2 a3 a10 a11 a12 a13 b d := rfl

theorem resultBlocks_ix3 (a0 a1 : A3) (a2 : A2) (a3 : A1) (a10 : A2) (a11 : A1) (a12 : A2) (a13 : A1) (b : Fin 64) (u : Fin 1) (d : Fin 1024) :
    resultBlocks a0 a1 a2 a3 a10 a11 a12 a13 (ix3 b u d) = resultAt a0 a1 a2 a3 a10 a11 a12 a13 b d := rfl

end Cert.AttnPool

end
-- ==== Proof.KernelValue.lean ====
/-
  The kernel's run read as a value. Point `t` of the grid writes back the 1×1×1024 block whose entry d is the pooling of batch `t`
  at feature d; the 64 blocks tile the [64,1,1024] array, one per batch; the host then views that array as [64,1024].
  So the run ends with the result buffer at `resultArr` of the argument arrays, and the arguments unchanged.
-/
import proofs.«160542_j73005854097706_2_alg».proof.Proof.KernelPayload
import proofs.«160542_j73005854097706_2_alg».proof.Proof.KernelBlocks
import proofs.«160542_j73005854097706_2_alg».proof.Proof.AttnResult

noncomputable section

namespace Cert.AttnPool.Kernel

open Idealize.ShloMosaic Idealize.ShloMosaic.ValueIdx Idealize.ShloMosaic.TcCoe Idealize.SL.Sem Idealize.ShloMosaic.StableHlo
open Cert.KernelIdeal Cert.KernelIdeal.Gen Cert.AttnPool

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's one store fills the whole output block; if a function `g` of the block's index agrees with the pooling of
    the loaded blocks at every feature, the block is `g`. -/
theorem out_block_eq (x0 x1 : Vec Ideal S1x512x1024 .f32) (wq wk wv : Vec Ideal S1024x1024 .bf16) (bq bk bv : Vec Ideal S1x1024 .f32)
    (g : S1x1x1024.Idx → EReal)
    (hg : ∀ d : Fin 1024, g (ix3 (0 : Fin 1) (0 : Fin 1) d)
      = pooledFold (fun (q : Fin 512) (j : Fin 1024) => x0 (ix3 (0 : Fin 1) q j)) (fun (k : Fin 512) (j : Fin 1024) => x1 (ix3 (0 : Fin 1) k j))
          (fun (e j : Fin 1024) => wq (ix2 j e)) (fun (e j : Fin 1024) => wk (ix2 j e)) (fun (e j : Fin 1024) => wv (ix2 j e))
          (fun e : Fin 1024 => bq (ix2 (0 : Fin 1) e)) (fun e : Fin 1024 => bk (ix2 (0 : Fin 1) e)) (fun e : Fin 1024 => bv (ix2 (0 : Fin 1) e)) d) :
    out0_8 x0 x1 wq wk wv bq bk bv = g := by
  unfold out0_8
  rw [View.canon_unit_zero hz3]
  simp only [View.ld_unit_zero (S := S1x512x1024) hz3, View.ld_unit_zero (S := S1024x1024) hz2, View.ld_unit_zero (S := S1x1024) hz2]
  funext y
  obtain ⟨d, rfl⟩ : ∃ d : Fin 1024, y = ix3 (0 : Fin 1) (0 : Fin 1) d :=
    ⟨⟨(y 2).val, (y 2).isLt⟩, funext fun a => Fin.ext (by
      match a with
      | ⟨0, _⟩ => have h : (y 0).val < 1 := (y 0).isLt; show (y 0).val = 0; omega
      | ⟨1, _⟩ => have h : (y 1).val < 1 := (y 1).isLt; show (y 1).val = 0; omega
      | ⟨2, _⟩ => rfl)⟩
  exact (pay_entry x0 x1 wq wk wv bq bk bv d).trans (hg d).symm

/-- The [64,1,1024] array of the region after the run, as a function of the argument arrays. -/
abbrev blocksOf (c : Dev nD) : S64x1x1024.Idx → EReal := resultBlocks (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))

/-- The [64,1024] result, as a function of the argument arrays. -/
abbrev resultOf (c : Dev nD) : S64x1024.Idx → EReal := resultArr (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13))

/-- What point `t` writes back is block `t` of `blocksOf`. -/
theorem flushed_eq (c : Dev nD) (t : Fin cfg0.N) :
    (dats m 0 c).flushed 8 t = ((cfg0.win 8).blk t).view.read (Elt Ideal) (blocksOf m c) := by
  show (cfg0.win 8).cut (grid0.coords t) ((dats m 0 c).after 8 t) = _
  rw [after0_8]
  have ht : t.val < 64 := lt_of_lt_of_eq t.isLt N_0
  refine out_block_eq (iblk m c 0 t) (iblk m c 1 t) (iblk m c 2 t) (iblk m c 3 t) (iblk m c 4 t) (iblk m c 5 t) (iblk m c 6 t) (iblk m c 7 t) _ fun d => ?_
  have hemb : ((cfg0.win 8).blk t).view.emb (ix3 (0 : Fin 1) (0 : Fin 1) d) = ix3 (⟨t.val, ht⟩ : Fin 64) (0 : Fin 1) d := funext fun a => Fin.ext (by
    obtain ⟨-, -, -, -, -, -, -, -, -, -, -, -, -, -, -, -, -, -, e80, e81, e82⟩ := idx_facts t
    match a with
    | ⟨0, _⟩ => show win0_8.index t (0 : Fin 3) * 1 + 1 * 0 = t.val; omega
    | ⟨1, _⟩ => show win0_8.index t (1 : Fin 3) * 1 + 1 * 0 = 0; omega
    | ⟨2, _⟩ => show win0_8.index t (2 : Fin 3) * 1024 + 1 * d.val = d.val; omega)
  show blocksOf m c (((cfg0.win 8).blk t).view.emb (ix3 (0 : Fin 1) (0 : Fin 1) d)) = _
  rw [hemb]
  refine (resultBlocks_ix3 _ _ _ _ _ _ _ _ ⟨t.val, ht⟩ 0 d).trans ?_
  unfold resultAt
  simp only [iblk0_apply m c t ⟨t.val, ht⟩ rfl, iblk1_apply m c t ⟨t.val, ht⟩ rfl, iblk2_apply m c t, iblk3_apply m c t, iblk4_apply m c t,
    iblk5_apply m c t, iblk6_apply m c t, iblk7_apply m c t]

/-- An index of the array is in point `t`'s block iff each coordinate is in the block's range on its axis. -/
theorem mem_blk (t : Fin cfg0.N) (i : S64x1x1024.Idx) :
    i ∈ ((cfg0.win 8).blk t).view.set ↔ ∀ a : Fin 3, win0_8.index t a * S1x1x1024.size a ≤ (i a).val ∧ (i a).val < win0_8.index t a * S1x1x1024.size a + S1x1x1024.size a := by
  show i ∈ ((View.whole main_v9).slice (win0_8.rect t)).set ↔ _
  rw [View.set_slice_whole, Rect.mem_set_unit]
  exact Iff.rfl

/-- Every index of the array lies in the block of the point numbered by its batch coordinate. -/
theorem cover (i : S64x1x1024.Idx) : ∃ t : Fin cfg0.N, (cfg0.win 8).flush t = true ∧ i ∈ ((cfg0.win 8).blk t).view.set := by
  have hi0 : (i 0).val < 64 := (i 0).isLt
  have hi1 : (i 1).val < 1 := (i 1).isLt
  have hi2 : (i 2).val < 1024 := (i 2).isLt
  have hN : (i 0).val < cfg0.N := lt_of_lt_of_eq hi0 N_0.symm
  refine ⟨⟨(i 0).val, hN⟩, flush0_8 _, ?_⟩
  rw [mem_blk]
  obtain ⟨-, -, -, -, -, -, -, -, -, -, -, -, -, -, -, -, -, -, e80', e81, e82⟩ := idx_facts ⟨(i 0).val, hN⟩
  have e80 : win0_8.index ⟨(i 0).val, hN⟩ (0 : Fin 3) = (i 0).val := e80'
  intro a
  match a with
  | ⟨0, _⟩ => show win0_8.index ⟨(i 0).val, hN⟩ (0 : Fin 3) * 1 ≤ (i 0).val ∧ (i 0).val < win0_8.index ⟨(i 0).val, hN⟩ (0 : Fin 3) * 1 + 1; omega
  | ⟨1, _⟩ => show win0_8.index ⟨(i 0).val, hN⟩ (1 : Fin 3) * 1 ≤ (i 1).val ∧ (i 1).val < win0_8.index ⟨(i 0).val, hN⟩ (1 : Fin 3) * 1 + 1; omega
  | ⟨2, _⟩ => show win0_8.index ⟨(i 0).val, hN⟩ (2 : Fin 3) * 1024 ≤ (i 2).val ∧ (i 2).val < win0_8.index ⟨(i 0).val, hN⟩ (2 : Fin 3) * 1024 + 1024; omega

/-- The region's output array after the run. -/
theorem final (c : Dev nD) : (dats m 0 c).arrAt 8 cfg0.N = blocksOf m c :=
  (dats m 0 c).arrAt_eq_of_cover 8 (blocksOf m c) (fun t _ => flushed_eq m c t) (cover)

/-- The [64,1,1024] array viewed as [64,1024]: entry (b,d) is entry (b,0,d). -/
theorem squeeze_apply (x : S64x1x1024.Idx → EReal) (b : Fin 64) (d : Fin 1024) :
    shapeCast S64x1024 x shapeCasts_S64x1x1024_S64x1024 (ix2 b d) = x (ix3 b (0 : Fin 1) d) :=
  shapeCast_apply x shapeCasts_S64x1x1024_S64x1024 _ _ (by
    rw [Shape.rowMajor_val_three, Shape.rowMajor_val_two]
    show (b.val * 1 + 0) * 1024 + d.val = b.val * 1024 + d.val
    omega)

/-- The result buffer after the host's reshape. -/
theorem tail_eq (c : Dev nD) : Pipeline.afterTail₀ cfgs (dats m) 0 (V0 m) [hostOps1] c main_v10 = resultOf m c := by
  unfold Pipeline.afterTail₀
  show StableHlo.after hostOps1 _ (Proc.devRef .tc main_v10) = _
  after_results
  funext i
  obtain ⟨b, d, rfl⟩ : ∃ (b : Fin 64) (d : Fin 1024), i = ix2 b d := ⟨i 0, i 1, eq_ix2 i⟩
  show shapeCast S64x1024 (Pipeline.withArrays (cfgs 0).spec c (V0 m c) (fun w => (dats m 0 c).arrAt w (cfgs 0).N) (Proc.devRef .tc main_v9))
    shapeCasts_S64x1x1024_S64x1024 (ix2 b d) = _
  refine (squeeze_apply _ b d).trans ?_
  have hw : Pipeline.withArrays (cfgs 0).spec c (V0 m c) (fun w => (dats m 0 c).arrAt w (cfgs 0).N) (Proc.devRef .tc main_v9) = blocksOf m c :=
    (Pipeline.withArrays_arr spec0 launch0.win.arr_inj c _ _ 8).trans (final m c)
  exact congrFun hw (ix3 b (0 : Fin 1) d)

/-- The kernel's run: every weakly fair execution terminates with the result buffer at `resultOf` and the arguments unchanged. -/
theorem run : θ_run defs (onTc (τ := τ) (main (F := Ideal))) ⟨m, fun _ => 0, ρ⟩ (fun r => ∀ c : Dev nD,
      r.2.mem ((c.tc : Thread nD τ).loc main_v10) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.AttnPool.Kernel

end
-- ==== Proof.RefEntry.lean ====
/-
  The reference program's result, read at an index, is the attention-pool function of AttnSpec on coordinates.

  Each stage of the reference is read at explicit coordinates: the three affine layers are rows of lin, the batched
  product of queries and keys is score, the row maximum (a fold of max from −∞, then a maximum with −∞ again) is rowMax,
  the exponentials divided by their row sum are softW, and the weighted values summed over the queries are pooledRef.
-/
import proofs.«160542_j73005854097706_2_alg».proof.Proof.Gen.ReferenceIdeal.Read
import proofs.«160542_j73005854097706_2_alg».proof.Proof.AttnSpec
import Idealize.ShloMosaic.Lib.ValueIdx
import Idealize.ShloMosaic.Lib.Pipeline.Value
import Idealize.ShloMosaic.PureOps.Ideal.Laws

noncomputable section

open scoped BigOperators

namespace Cert.AttnPool.Ref

open Idealize.ShloMosaic Idealize.ShloMosaic.ValueIdx Cert.ReferenceIdeal Cert.ReferenceIdeal.Read Cert.AttnPool

/-- The −∞ word is the bottom element. -/
theorem negInf_eq_bot : Ideal.ofBits .f32 0xFF800000#32 = (⊥ : EReal) := by
  simp [Ideal.ofBits, Ideal.ieee]

/-! ## The three affine layers -/

/-- Queries: entry (b, q, e) of x0·Wqᵀ + bq is the row form on coordinates. -/
theorem v3_entry (x0 : FVec Ideal S64x512x1024 .f32) (x2 : FVec Ideal S1024x1024 .f32) (x3 : FVec Ideal S1024 .f32)
    (b : Fin 64) (q : Fin 512) (e : Fin 1024) :
    val_main_v3 (F := Ideal) x0 x2 x3 (ix3 b q e)
      = lin (fun j : Fin 1024 => x0 (ix3 b q j)) (fun (e j : Fin 1024) => x2 (ix2 e j)) (fun e : Fin 1024 => x3 (ix1 e)) e := by
  rw [val_main_v3_apply, val_main_v0_apply, val_main_v2_apply, val_main_v1_apply]
  have hl : ∀ k : Fin 1024, lidx_main_v0 (ix3 b q e) k = ix3 b q k := fun k => funext fun a => Fin.ext (by
    match a with | ⟨0, _⟩ => rfl | ⟨1, _⟩ => rfl | ⟨2, _⟩ => rfl)
  have hr : ∀ k : Fin 1024, ridx_main_v0 (ix3 b q e) k = ix2 e k := fun k => funext fun a => Fin.ext (by
    match a with | ⟨0, _⟩ => rfl | ⟨1, _⟩ => rfl)
  have hb : idx_main_v1 (idx_main_v2 (ix3 b q e)) = ix1 e := funext fun a => Fin.ext (by
    match a with | ⟨0, _⟩ => rfl)
  simp only [Ideal.addf_def, hl, hr, hb]
  rfl

/-- Keys: entry (b, k, e) of x1·Wkᵀ + bk. -/
theorem v19_entry (x1 : FVec Ideal S64x512x1024 .f32) (x10 : FVec Ideal S1024x1024 .f32) (x11 : FVec Ideal S1024 .f32)
    (b : Fin 64) (k : Fin 512) (e : Fin 1024) :
    val_main_v19 (F := Ideal) x1 x10 x11 (ix3 b k e)
      = lin (fun j : Fin 1024 => x1 (ix3 b k j)) (fun (e j : Fin 1024) => x10 (ix2 e j)) (fun e : Fin 1024 => x11 (ix1 e)) e := by
  rw [val_main_v19_apply, val_main_v16_apply, val_main_v18_apply, val_main_v17_apply]
  have hl : ∀ j : Fin 1024, lidx_main_v16 (ix3 b k e) j = ix3 b k j := fun j => funext fun a => Fin.ext (by
    match a with | ⟨0, _⟩ => rfl | ⟨1, _⟩ => rfl | ⟨2, _⟩ => rfl)
  have hr : ∀ j : Fin 1024, ridx_main_v16 (ix3 b k e) j = ix2 e j := fun j => funext fun a => Fin.ext (by
    match a with | ⟨0, _⟩ => rfl | ⟨1, _⟩ => rfl)
  have hb : idx_main_v17 (idx_main_v18 (ix3 b k e)) = ix1 e := funext fun a => Fin.ext (by
    match a with | ⟨0, _⟩ => rfl)
  simp only [Ideal.addf_def, hl, hr, hb]
  rfl

/-- Values: entry (b, k, d) of x1·Wvᵀ + bv. -/
theorem v23_entry (x1 : FVec Ideal S64x512x1024 .f32) (x12 : FVec Ideal S1024x1024 .f32) (x13 : FVec Ideal S1024 .f32)
    (b : Fin 64) (k : Fin 512) (d : Fin 1024) :
    val_main_v23 (F := Ideal) x1 x12 x13 (ix3 b k d)
      = lin (fun j : Fin 1024 => x1 (ix3 b k j)) (fun (e j : Fin 1024) => x12 (ix2 e j)) (fun e : Fin 1024 => x13 (ix1 e)) d := by
  rw [val_main_v23_apply, val_main_v20_apply, val_main_v22_apply, val_main_v21_apply]
  have hl : ∀ j : Fin 1024, lidx_main_v20 (ix3 b k d) j = ix3 b k j := fun j => funext fun a => Fin.ext (by
    match a with | ⟨0, _⟩ => rfl | ⟨1, _⟩ => rfl | ⟨2, _⟩ => rfl)
  have hr : ∀ j : Fin 1024, ridx_main_v20 (ix3 b k d) j = ix2 d j := fun j => funext fun a => Fin.ext (by
    match a with | ⟨0, _⟩ => rfl | ⟨1, _⟩ => rfl)
  have hb : idx_main_v21 (idx_main_v22 (ix3 b k d)) = ix1 d := funext fun a => Fin.ext (by
    match a with | ⟨0, _⟩ => rfl)
  simp only [Ideal.addf_def, hl, hr, hb]
  rfl

/-! ## Scores and their row maximum -/

/-- Scores: entry (b, q, k) of the batched product of queries and keys is the scalar product of the two projected rows. -/
theorem v24_entry (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q k : Fin 512) :
    val_main_v24 (F := Ideal) x0 x1 x2 x3 x10 x11 (ix3 b q k)
      = score (fun (e j : Fin 1024) => x2 (ix2 e j)) (fun (e j : Fin 1024) => x10 (ix2 e j))
          (fun e : Fin 1024 => x3 (ix1 e)) (fun e : Fin 1024 => x11 (ix1 e))
          (fun j : Fin 1024 => x0 (ix3 b q j)) (fun j : Fin 1024 => x1 (ix3 b k j)) := by
  rw [val_main_v24_apply]
  unfold score
  refine Finset.sum_congr rfl fun e _ => ?_
  have hl : lidx_main_v24 (ix3 b q k) e = ix3 b q e := funext fun a => Fin.ext (by
    match a with | ⟨0, _⟩ => rfl | ⟨1, _⟩ => rfl | ⟨2, _⟩ => rfl)
  have hr : ridx_main_v24 (ix3 b q k) e = ix3 b k e := funext fun a => Fin.ext (by
    match a with | ⟨0, _⟩ => rfl | ⟨1, _⟩ => rfl | ⟨2, _⟩ => rfl)
  rw [hl, hr, v3_entry, v19_entry]

/-- The row of scores of query q in batch b. -/
abbrev scoreRow (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q : Fin 512) : Fin 512 → EReal :=
  fun k' : Fin 512 => score (fun (e j : Fin 1024) => x2 (ix2 e j)) (fun (e j : Fin 1024) => x10 (ix2 e j))
    (fun e : Fin 1024 => x3 (ix1 e)) (fun e : Fin 1024 => x11 (ix1 e))
    (fun j : Fin 1024 => x0 (ix3 b q j)) (fun j : Fin 1024 => x1 (ix3 b k' j))

/-- The reduce with a maximum body from −∞ over the key axis, at (b, q), is the row maximum of the scores. -/
theorem v25_entry (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q : Fin 512) :
    val_main_v25 (F := Ideal) x0 x1 x2 x3 x10 x11 (ix2 b q) = rowMax (scoreRow x0 x1 x2 x3 x10 x11 b q) := by
  unfold val_main_v25
  have h : S64x512x512.Reduces [2] S64x512 := by decide
  rw [Host.reduce_eq_fold_single FloatOps.maximumf _ _ Gen.reducesTo_S64x512x512_S64x512_d2 h Gen.h_S_]
  have hf : (val_main_v24 (F := Ideal) x0 x1 x2 x3 x10 x11 ∘ h.lift (ix2 b q)) = scoreRow x0 x1 x2 x3 x10 x11 b q :=
    funext fun k => by
      show val_main_v24 (F := Ideal) x0 x1 x2 x3 x10 x11 (h.lift (ix2 b q) k) = _
      have hk : h.lift (ix2 b q) k = ix3 b q (⟨k.val, k.isLt⟩ : Fin 512) := funext fun a => Fin.ext (by
        match a with | ⟨0, _⟩ => rfl | ⟨1, _⟩ => rfl | ⟨2, _⟩ => rfl)
      rw [hk, v24_entry]
      rfl
  have hi : val_main_cst (F := Ideal) (Shape.Idx.first Gen.h_S_) = (⊥ : EReal) := by
    rw [val_main_cst_apply, Ideal.ofBits_def, negInf_eq_bot]
  rw [hi]
  unfold rowMax
  exact congrArg (fun f => Finset.fold max (⊥ : EReal) f (Finset.univ : Finset (Fin 512))) hf

/-- The maximum with −∞ again changes nothing. -/
theorem v27_entry (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q : Fin 512) :
    val_main_v27 (F := Ideal) x0 x1 x2 x3 x10 x11 (ix2 b q) = rowMax (scoreRow x0 x1 x2 x3 x10 x11 b q) := by
  rw [val_main_v27_apply, val_main_v26_apply, val_main_cst_0_apply, v25_entry, Ideal.ofBits_def, negInf_eq_bot,
    Ideal.maximumf_def]
  exact max_bot_left _

/-! ## The softmax weights -/

/-- Entry (b, q, k) of the exponentials: exp of the score less its row maximum. -/
theorem v31_entry (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q k : Fin 512) :
    val_main_v31 (F := Ideal) x0 x1 x2 x3 x10 x11 (ix3 b q k)
      = Ideal.exp (scoreRow x0 x1 x2 x3 x10 x11 b q k - rowMax (scoreRow x0 x1 x2 x3 x10 x11 b q)) := by
  rw [val_main_v31_apply, val_main_v30_apply, val_main_v29_apply, val_main_v28_apply]
  have hi : idx_main_v28 (idx_main_v29 (ix3 b q k)) = ix2 b q := funext fun a => Fin.ext (by
    match a with | ⟨0, _⟩ => rfl | ⟨1, _⟩ => rfl)
  rw [hi, v27_entry, v24_entry, Ideal.hostUnary_exp_def, Ideal.subf_def]

/-- Entry (b, q) of the row sums of the exponentials. -/
theorem v32_entry (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q : Fin 512) :
    val_main_v32 (F := Ideal) x0 x1 x2 x3 x10 x11 (ix2 b q)
      = ∑ j : Fin 512, Ideal.exp (scoreRow x0 x1 x2 x3 x10 x11 b q j - rowMax (scoreRow x0 x1 x2 x3 x10 x11 b q)) := by
  rw [val_main_v32_apply, val_main_cst_1_apply, Ideal.ofBits_def, Ideal.ofBits_zero_f32, zero_add]
  refine Finset.sum_congr rfl fun j _ => ?_
  have hi : idx_main_v32 (ix2 b q) j = ix3 b q j := funext fun a => Fin.ext (by
    match a with | ⟨0, _⟩ => rfl | ⟨1, _⟩ => rfl | ⟨2, _⟩ => rfl)
  rw [hi, v31_entry]

/-- Entry (b, q, k) of the quotient: the softmax weight of key k in the row of query q. -/
theorem v35_entry (x0 x1 : FVec Ideal S64x512x1024 .f32) (x2 : FVec Ideal S1024x1024 .f32) (x3 : FVec Ideal S1024 .f32)
    (x10 : FVec Ideal S1024x1024 .f32) (x11 : FVec Ideal S1024 .f32) (b : Fin 64) (q k : Fin 512) :
    val_main_v35 (F := Ideal) x0 x1 x2 x3 x10 x11 (ix3 b q k) = softW (scoreRow x0 x1 x2 x3 x10 x11 b q) k := by
  rw [val_main_v35_apply, val_main_v34_apply, val_main_v33_apply]
  have hi : idx_main_v33 (idx_main_v34 (ix3 b q k)) = ix2 b q := funext fun a => Fin.ext (by
    match a with | ⟨0, _⟩ => rfl | ⟨1, _⟩ => rfl)
  rw [hi, v32_entry, v31_entry, Ideal.hostDivf_def]
  rfl

/-! ## The weighted values and the sum over queries -/

/-- Entry (b, q, d) of the product of weights and values. -/
theorem v36_entry (x0 x1 : FVec Ideal S64x512x1024 .f32) (x2 : FVec Ideal S1024x1024 .f32) (x3 : FVec Ideal S1024 .f32)
    (x10 : FVec Ideal S1024x1024 .f32) (x11 : FVec Ideal S1024 .f32) (x12 : FVec Ideal S1024x1024 .f32) (x13 : FVec Ideal S1024 .f32)
    (b : Fin 64) (q : Fin 512) (d : Fin 1024) :
    val_main_v36 (F := Ideal) x0 x1 x2 x3 x10 x11 x12 x13 (ix3 b q d)
      = ∑ k : Fin 512, softW (scoreRow x0 x1 x2 x3 x10 x11 b q) k
          * lin (fun j : Fin 1024 => x1 (ix3 b k j)) (fun (e j : Fin 1024) => x12 (ix2 e j)) (fun e : Fin 1024 => x13 (ix1 e)) d := by
  rw [val_main_v36_apply]
  refine Finset.sum_congr rfl fun k _ => ?_
  have hl : lidx_main_v36 (ix3 b q d) k = ix3 b q k := funext fun a => Fin.ext (by
    match a with | ⟨0, _⟩ => rfl | ⟨1, _⟩ => rfl | ⟨2, _⟩ => rfl)
  have hr : ridx_main_v36 (ix3 b q d) k = ix3 b k d := funext fun a => Fin.ext (by
    match a with | ⟨0, _⟩ => rfl | ⟨1, _⟩ => rfl | ⟨2, _⟩ => rfl)
  rw [hl, hr, v35_entry, v23_entry]

/-- The reference's result at (b, d) is the attention-pool function of batch b at feature d. -/
theorem ref_entry (x0 x1 : FVec Ideal S64x512x1024 .f32) (x2 : FVec Ideal S1024x1024 .f32) (x3 : FVec Ideal S1024 .f32)
    (x10 : FVec Ideal S1024x1024 .f32) (x11 : FVec Ideal S1024 .f32) (x12 : FVec Ideal S1024x1024 .f32) (x13 : FVec Ideal S1024 .f32)
    (b : Fin 64) (d : Fin 1024) :
    val_main_v37 (F := Ideal) x0 x1 x2 x3 x10 x11 x12 x13 (ix2 b d)
      = pooledRef (fun (q : Fin 512) (j : Fin 1024) => x0 (ix3 b q j)) (fun (k : Fin 512) (j : Fin 1024) => x1 (ix3 b k j))
          (fun (e j : Fin 1024) => x2 (ix2 e j)) (fun (e j : Fin 1024) => x10 (ix2 e j)) (fun (e j : Fin 1024) => x12 (ix2 e j))
          (fun (e : Fin 1024) => x3 (ix1 e)) (fun (e : Fin 1024) => x11 (ix1 e)) (fun (e : Fin 1024) => x13 (ix1 e)) d := by
  rw [val_main_v37_apply, val_main_cst_2_apply, Ideal.ofBits_def, Ideal.ofBits_zero_f32, zero_add]
  unfold pooledRef
  refine Finset.sum_congr rfl fun q _ => ?_
  have hi : idx_main_v37 (ix2 b d) q = ix3 b q d := funext fun a => Fin.ext (by
    match a with | ⟨0, _⟩ => rfl | ⟨1, _⟩ => rfl | ⟨2, _⟩ => rfl)
  rw [hi, v36_entry]
  rfl

end Cert.AttnPool.Ref

end
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.LibSoftmaxPool.lean ====
/-
  Softmax attention weights over the extended reals are real numbers, and pooling them "queries first"
  agrees with pooling them "values first".

  A row of real scores has a real maximum (the index set being nonempty), so every shifted score
  `s k − max s` is real, its exponential is a positive real, the normalising sum is a positive real — in
  particular not zero — and the quotient is a real number.  With every weight real, and the inputs of the
  value projection real, the products distribute over the finite sums and the sums may be exchanged, which is
  all the identity between the two poolings needs.  On the extended reals distributivity fails for infinite
  entries, hence the hypotheses.
-/
import proofs.«160542_j73005854097706_2_alg».proof.Proof.AttnSpec
import proofs.«160542_j73005854097706_2_alg».proof.Proof.LibDenseEdges

noncomputable section

open scoped BigOperators

namespace Cert.AttnPool

open Cert.DenseEdges
open Idealize.ShloMosaic

/-! ## The row maximum -/

/-- Folding `max` from `⊥` over a finite set of real numbers: either the set is empty, or the result is a real
    number (the largest of them). -/
theorem fold_max_empty_or_isReal {ι : Type*} (s : Finset ι) (f : ι → EReal) (hf : ∀ k, IsReal (f k)) :
    s = ∅ ∨ IsReal (s.fold max ⊥ f) := by
  classical
  refine Finset.induction_on s (Or.inl rfl) (fun a s ha ih => Or.inr ?_)
  rw [Finset.fold_insert ha]
  rcases ih with rfl | h
  · rw [Finset.fold_empty, max_eq_left bot_le]; exact hf a
  · exact (hf a).max h

/-- The maximum of a nonempty row of real numbers is a real number. -/
theorem isReal_rowMax {n : ℕ} (hn : 0 < n) (f : Fin n → EReal) (hf : ∀ k, IsReal (f k)) :
    IsReal (rowMax f) := by
  haveI : Nonempty (Fin n) := ⟨⟨0, hn⟩⟩
  rcases fold_max_empty_or_isReal (Finset.univ : Finset (Fin n)) f hf with h | h
  · exact absurd h Finset.univ_nonempty.ne_empty
  · exact h

/-! ## The softmax weights -/

/-- Each softmax weight of a nonempty row of real scores is a real number: the shifted scores are real, their
    exponentials positive reals, so the denominator is a positive real and the quotient is real. -/
theorem softW_isReal {n : ℕ} (hn : 0 < n) (s : Fin n → EReal) (hs : ∀ k, IsReal (s k)) (k : Fin n) :
    IsReal (softW s k) := by
  obtain ⟨m, hm⟩ := isReal_rowMax hn s hs
  choose r hr using hs
  have hexp : ∀ j, Ideal.exp (s j - rowMax s) = ((Real.exp (r j - m) : ℝ) : EReal) := by
    intro j
    rw [hr j, hm, ← EReal.coe_sub]
    rfl
  have hpos : (∑ j, Real.exp (r j - m)) ≠ 0 := by
    haveI : Nonempty (Fin n) := ⟨⟨0, hn⟩⟩
    exact (Finset.sum_pos (fun j _ => Real.exp_pos _) Finset.univ_nonempty).ne'
  unfold softW
  simp only [hexp]
  rw [← coe_sum, Ideal.div_coe hpos, ← EReal.coe_mul]
  exact ⟨_, rfl⟩

/-! ## Exchanging the order of pooling -/

/-- Over the reals: summing the weights over the queries first, then against the inputs, then against the
    projection row, plus the total weight times the bias, is summing over queries and keys the weight times
    the projected value.  Distributivity and the exchange of finite sums. -/
theorem real_pool_fold {Q K J : ℕ} (a : Fin Q → Fin K → ℝ) (x : Fin K → Fin J → ℝ) (w : Fin J → ℝ) (β : ℝ) :
    (∑ j, (∑ k, (∑ q, a q k) * x k j) * w j) + (∑ k, ∑ q, a q k) * β
      = ∑ q, ∑ k, a q k * ((∑ j, x k j * w j) + β) := by
  have h1 : (∑ j, (∑ k, (∑ q, a q k) * x k j) * w j) = ∑ q, ∑ k, a q k * ∑ j, x k j * w j := by
    calc (∑ j, (∑ k, (∑ q, a q k) * x k j) * w j)
        = ∑ j, ∑ k, ∑ q, a q k * x k j * w j := by
          simp only [Finset.sum_mul]
      _ = ∑ k, ∑ j, ∑ q, a q k * x k j * w j := Finset.sum_comm
      _ = ∑ k, ∑ q, ∑ j, a q k * x k j * w j := Finset.sum_congr rfl fun k _ => Finset.sum_comm
      _ = ∑ q, ∑ k, ∑ j, a q k * x k j * w j := Finset.sum_comm
      _ = ∑ q, ∑ k, a q k * ∑ j, x k j * w j := by
          simp only [Finset.mul_sum, mul_assoc]
  have h2 : (∑ k, ∑ q, a q k) * β = ∑ q, ∑ k, a q k * β := by
    rw [Finset.sum_comm]
    simp only [Finset.sum_mul]
  rw [h1, h2, ← Finset.sum_add_distrib]
  refine Finset.sum_congr rfl fun q _ => ?_
  rw [← Finset.sum_add_distrib]
  refine Finset.sum_congr rfl fun k _ => ?_
  rw [mul_add]

/-- The same identity over the extended reals, for real-valued weights, inputs, projection row and bias. -/
theorem pool_fold {Q K J : ℕ} (a : Fin Q → Fin K → EReal) (x : Fin K → Fin J → EReal) (w : Fin J → EReal)
    (β : EReal)
    (ha : ∀ q k, IsReal (a q k)) (hx : ∀ k j, IsReal (x k j)) (hw : ∀ j, IsReal (w j)) (hβ : IsReal β) :
    (∑ j, (∑ k, (∑ q, a q k) * x k j) * w j) + (∑ k, ∑ q, a q k) * β
      = ∑ q, ∑ k, a q k * ((∑ j, x k j * w j) + β) := by
  choose a' ha' using ha
  choose x' hx' using hx
  choose w' hw' using hw
  obtain ⟨β', rfl⟩ := hβ
  simp only [ha', hx', hw', ← coe_sum, ← EReal.coe_mul, ← EReal.coe_add]
  exact congrArg _ (real_pool_fold a' x' w' β')

/-! ## The two poolings of the attention weights -/

/-- An affine row of real inputs, weights and bias is real. -/
theorem isReal_lin {D E : ℕ} (x : Fin D → EReal) (W : Fin E → Fin D → EReal) (b : Fin E → EReal)
    (hx : ∀ d, IsReal (x d)) (hW : ∀ e d, IsReal (W e d)) (hb : ∀ e, IsReal (b e)) (e : Fin E) :
    IsReal (lin x W b e) :=
  (isReal_sum _ _ fun d _ => (hx d).mul (hW e d)).add (hb e)

/-- The score of two real rows under real projections is real. -/
theorem isReal_score {D E : ℕ} (Wq Wk : Fin E → Fin D → EReal) (bq bk : Fin E → EReal) (x y : Fin D → EReal)
    (hWq : ∀ e d, IsReal (Wq e d)) (hWk : ∀ e d, IsReal (Wk e d))
    (hbq : ∀ e, IsReal (bq e)) (hbk : ∀ e, IsReal (bk e))
    (hx : ∀ d, IsReal (x d)) (hy : ∀ d, IsReal (y d)) :
    IsReal (score Wq Wk bq bk x y) :=
  isReal_sum _ _ fun e _ => (isReal_lin x Wq bq hx hWq hbq e).mul (isReal_lin y Wk bk hy hWk hbk e)

/-- For real inputs, weights and biases (and at least one key), pooling the attention weights over the queries
    before the value projection gives the same result as projecting the values, weighting them and summing
    over the queries: every attention weight is real, so the exchange identity applies. -/
theorem pooledFold_eq_pooledRef {Q K D E : ℕ} (hK : 0 < K)
    (x1 : Fin Q → Fin D → EReal) (x2 : Fin K → Fin D → EReal) (Wq Wk Wv : Fin E → Fin D → EReal)
    (bq bk bv : Fin E → EReal)
    (h1 : ∀ q d, IsReal (x1 q d)) (h2 : ∀ k d, IsReal (x2 k d)) (hWq : ∀ e d, IsReal (Wq e d))
    (hWk : ∀ e d, IsReal (Wk e d))
    (hWv : ∀ e d, IsReal (Wv e d)) (hbq : ∀ e, IsReal (bq e)) (hbk : ∀ e, IsReal (bk e))
    (hbv : ∀ e, IsReal (bv e)) (d : Fin E) :
    pooledFold x1 x2 Wq Wk Wv bq bk bv d = pooledRef x1 x2 Wq Wk Wv bq bk bv d := by
  have hattn : ∀ q k, IsReal (attn x1 x2 Wq Wk bq bk q k) := fun q k =>
    softW_isReal hK _ (fun k' => isReal_score Wq Wk bq bk (x1 q) (x2 k') hWq hWk hbq hbk (h1 q) (h2 k')) k
  unfold pooledFold pooledRef lin
  exact pool_fold (attn x1 x2 Wq Wk bq bk) x2 (Wv d) (bv d) hattn h2 (hWv d) (hbv d)

end Cert.AttnPool

end
-- ==== Proof.Bridge.lean ====
/-
  The reference's result array is the result array: entry by entry the reference computes the values-first pooling, which
  equals the queries-first pooling when every entry of the eight argument arrays is a real number.
-/
import proofs.«160542_j73005854097706_2_alg».proof.Proof.RefEntry
import proofs.«160542_j73005854097706_2_alg».proof.Proof.AttnResult
import proofs.«160542_j73005854097706_2_alg».proof.Proof.LibSoftmaxPool

noncomputable section

namespace Cert.AttnPool.Ref

open Idealize.ShloMosaic Idealize.ShloMosaic.ValueIdx Cert.ReferenceIdeal Cert.ReferenceIdeal.Read Cert.AttnPool Cert.DenseEdges

/-- With real-valued arguments the reference's last stage is `resultArr` of them. -/
theorem result_eq (x0 x1 : FVec Ideal S64x512x1024 .f32) (x2 : FVec Ideal S1024x1024 .f32) (x3 : FVec Ideal S1024 .f32)
    (x10 : FVec Ideal S1024x1024 .f32) (x11 : FVec Ideal S1024 .f32) (x12 : FVec Ideal S1024x1024 .f32) (x13 : FVec Ideal S1024 .f32)
    (r0 : ∀ i, IsReal (x0 i)) (r1 : ∀ i, IsReal (x1 i)) (r2 : ∀ i, IsReal (x2 i)) (r3 : ∀ i, IsReal (x3 i))
    (r10 : ∀ i, IsReal (x10 i)) (r11 : ∀ i, IsReal (x11 i)) (r12 : ∀ i, IsReal (x12 i)) (r13 : ∀ i, IsReal (x13 i)) :
    val_main_v37 (F := Ideal) x0 x1 x2 x3 x10 x11 x12 x13 = resultArr x0 x1 x2 x3 x10 x11 x12 x13 := by
  funext i
  obtain ⟨b, d, rfl⟩ : ∃ (b : Fin 64) (d : Fin 1024), i = ix2 b d := ⟨i 0, i 1, eq_ix2 i⟩
  rw [ref_entry, resultArr_ix2]
  unfold resultAt
  exact (pooledFold_eq_pooledRef (by decide : 0 < 512) _ _ _ _ _ _ _ _
    (fun _ _ => r0 _) (fun _ _ => r1 _) (fun _ _ => r2 _) (fun _ _ => r10 _) (fun _ _ => r12 _)
    (fun _ => r3 _) (fun _ => r11 _) (fun _ => r13 _) d).symm

end Cert.AttnPool.Ref

end
-- ==== Proof.FiniteInputs.lean ====
/-
  Finite inputs are real numbers.

  The precondition compares, entry by entry, the absolute value of each argument array with +∞ (the pattern
  0x7F800000 of the 32-bit format), folds each comparison array by `and`, and joins the fourteen results by `and`;
  it states that the outcome is 1.  Over the extended reals the absolute value is max x (−x), so |x| < +∞ says
  x ≠ +∞ and x ≠ −∞: the entry is a real number.  A fold by `and` that is 1 met only 1s, so this holds at every
  index of every argument array.
-/
import proofs.«160542_j73005854097706_2_alg».proof.Defs
import proofs.«160542_j73005854097706_2_alg».proof.Proof.Gen.Pre_finite_inputs
import proofs.«160542_j73005854097706_2_alg».proof.Proof.LibDenseEdges
import Idealize.ShloMosaic.Lib.ReduceAll
import Idealize.ShloMosaic.Lib.ValueIdx

noncomputable section

namespace Cert.AttnPool.Finite

open Idealize.ShloMosaic Idealize.SL.Sem Cert.DenseEdges
open Cert.Pre_finite_inputs

/-- The rank-0 shape has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (−x) is below +∞ is a real number. -/
theorem isReal_of_abs_lt_top {x : EReal} (h : max x (-x) < ⊤) : IsReal x := by
  refine isReal_of_ne ?_ ?_
  · rintro rfl
    simp at h
  · rintro rfl
    simp at h

/-- One conjunct of the precondition, read back: if the fold by `and` of the comparisons |x i| < +∞ is 1,
    every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, IsReal (x i) := by
  intro i
  have h1 := Host.reduce_andi_all _ _ hr hu _ e i
  have h2 : Ideal.cmp .olt (max (x i) (-(x i))) (Ideal.ofBits .f32 0x7F800000#32) = 1#1 := h1
  rw [inf_bits] at h2
  have h3 : BitVec.ofBool (decide (max (x i) (-(x i)) < ⊤)) = 1#1 := h2
  apply isReal_of_abs_lt_top
  by_contra hn
  rw [decide_eq_false hn] at h3
  exact absurd h3 (by decide)

/-- A join of two one-bit scalars by `and` that is 1 joined two 1s. -/
theorem andi_ix0 {a b : IVec S_ 1} (h : andi a b ValueIdx.ix0 = 1#1) :
    a ValueIdx.ix0 = 1#1 ∧ b ValueIdx.ix0 = 1#1 :=
  IntOp.andi_eq_one.1 h

theorem args_real [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i))
    ∧ (∀ i, IsReal (m ((c.tc : Thread Cert.KernelIdeal.nD Cert.KernelIdeal.τ).loc Cert.KernelIdeal.main_arg13) i)) := by
  have h := congrFun (hpre c) ValueIdx.ix0
  dsimp only [fn, fn_part1, fn_part2, fn_part3, fn_part4] at h
  obtain ⟨h, h13⟩ := andi_ix0 h
  obtain ⟨h, h12⟩ := andi_ix0 h
  obtain ⟨h, h11⟩ := andi_ix0 h
  obtain ⟨h, h10⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, h3⟩ := andi_ix0 h
  obtain ⟨h, h2⟩ := andi_ix0 h
  obtain ⟨h0, h1⟩ := andi_ix0 h
  exact ⟨real_of_all _ _ _ _ h0, real_of_all _ _ _ _ h1, real_of_all _ _ _ _ h2, real_of_all _ _ _ _ h3,
    real_of_all _ _ _ _ h10, real_of_all _ _ _ _ h11, real_of_all _ _ _ _ h12, real_of_all _ _ _ _ h13⟩

end Cert.AttnPool.Finite

end
-- ==== Proof.lean ====
/-
  An attention pooling on the device against its plain reference, over the extended reals.

  For each of 64 batches the two inputs are 512×1024 blocks x1, x2. With queries q1 = x1·Wqᵀ + bq, keys k2 = x2·Wkᵀ + bk,
  scores s = q1·k2ᵀ and the row softmax a = exp(s − rowmax s) / rowsum, the reference forms the values v2 = x2·Wvᵀ + bv,
  applies the weights, and sums over the queries: out[d] = ∑ q ∑ k a[q,k]·v2[k,d]. The device never forms v2: it sums the
  weights over the queries first, s[k] = ∑ q a[q,k], and computes out[d] = ∑ j (∑ k s[k]·x2[k,j])·Wv[d,j] + (∑ k s[k])·bv[d].

  The two agree by distributivity and the exchange of finite sums, which on the extended reals needs every factor to be a
  real number: the precondition makes every input entry real, sums and products of reals are real, the row maximum of
  finitely many reals is real, exp of a real is a positive real, so the row sums are positive reals and every softmax
  weight is real. The device's changes of float format are the identity at this instance, its matrix products into zero
  accumulators are the plain sums, and its weight matrices were transposed on the host, which the index bookkeeping undoes.

  The frames of the two device programs are the generated ones; the reference's frame is its generated run with the
  result dropped. No rewrite was applied when the idealized device program was printed, so `preserves` is trivial.
-/
import proofs.«160542_j73005854097706_2_alg».proof.Defs
import proofs.«160542_j73005854097706_2_alg».proof.Proof.Gen.Kernel
import proofs.«160542_j73005854097706_2_alg».proof.Proof.Gen.Kernel.Skeleton
import proofs.«160542_j73005854097706_2_alg».proof.Proof.Gen.Kernel.Launch
import proofs.«160542_j73005854097706_2_alg».proof.Proof.Gen.Kernel.Points
import proofs.«160542_j73005854097706_2_alg».proof.Proof.Gen.Kernel.Frame
import proofs.«160542_j73005854097706_2_alg».proof.Proof.Gen.KernelIdeal
import proofs.«160542_j73005854097706_2_alg».proof.Proof.Gen.KernelIdeal.Skeleton
import proofs.«160542_j73005854097706_2_alg».proof.Proof.Gen.KernelIdeal.Launch
import proofs.«160542_j73005854097706_2_alg».proof.Proof.Gen.KernelIdeal.Points
import proofs.«160542_j73005854097706_2_alg».proof.Proof.Gen.KernelIdeal.Frame
import proofs.«160542_j73005854097706_2_alg».proof.Proof.Gen.ReferenceIdeal
import proofs.«160542_j73005854097706_2_alg».proof.Proof.Gen.ReferenceIdeal.Run
import proofs.«160542_j73005854097706_2_alg».proof.Proof.Gen.ReferenceIdeal.Read
import proofs.«160542_j73005854097706_2_alg».proof.Proof.Gen.Pre_finite_inputs
import proofs.«160542_j73005854097706_2_alg».proof.Proof.KernelValue
import proofs.«160542_j73005854097706_2_alg».proof.Proof.Bridge
import proofs.«160542_j73005854097706_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the result array of the kernel's arguments: the device's by its run read as
    a value, the reference's by its run, the agreement of the arguments, and the equality of the two poolings on reals. -/
theorem algebraic : Cert.algebraic_KernelIdeal_ReferenceIdeal := by
  intro m ρ m' ρ' hpre hagree
  refine ⟨fun c => Cert.AttnPool.Kernel.resultOf m c, Cert.AttnPool.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13⟩ := hagree c
  obtain ⟨r0, r1, r2, r3, r10, r11, r12, r13⟩ := Cert.AttnPool.Finite.args_real m hpre c
  rw [Cert.ReferenceIdeal.Read.val_main_v37_eq, g0, g1, g2, g3, g10, g11, g12, g13]
  exact Cert.AttnPool.Ref.result_eq _ _ _ _ _ _ _ _ r0 r1 r2 r3 r10 r11 r12 r13

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
